-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S4096x4096 : Shape := ⟨2, ![4096, 4096]⟩
abbrev S4096 : Shape := ⟨1, ![4096]⟩
abbrev S131072 : Shape := ⟨1, ![131072]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S131072 : S_.BroadcastsInDim S131072 (![] : Fin 0 → Fin S131072.rank)
  reducesTo_S131072_S_d0 : S131072.ReducesTo [0] S_

variable [Facts]

def fn_part1 {F : FTy → Type} [FloatOps F] (main_arg4 : FVec F S131072 .f32) (main_arg5 : FVec F S131072 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S131072 .f32 := Host.absf main_arg4
  let main_cst_6 : FVec F S_ .f32 := constant S_ .f32 0x7F800000#32
  let main_v20 : FVec F S131072 .f32 := broadcastInDim S131072 ![] bcast_S_S131072 main_cst_6
  let main_v21 : IVec S131072 1 := cmpf .olt main_v19 main_v20
  let main_c_7 : IVec S_ 1 := constantI S_ 1 1#1
  let main_v22 : IVec S_ 1 := (fun x v => Host.reduce IntOp.andi x v reducesTo_S131072_S_d0 h_S_) main_v21 main_c_7
  let main_v23 : IVec S_ 1 := andi main_v18 main_v22
  let main_v24 : FVec F S131072 .f32 := Host.absf main_arg5
  let main_cst_8 : FVec F S_ .f32 := constant S_ .f32 0x7F800000#32
  let main_v25 : FVec F S131072 .f32 := broadcastInDim S131072 ![] bcast_S_S131072 main_cst_8
  let main_v26 : IVec S131072 1 := cmpf .olt main_v24 main_v25
  let main_c_9 : IVec S_ 1 := constantI S_ 1 1#1
  let main_v27 : IVec S_ 1 := (fun x v => Host.reduce IntOp.andi x v reducesTo_S131072_S_d0 h_S_) main_v26 main_c_9
  let main_v28 : IVec S_ 1 := andi main_v23 main_v27
  main_v28

def fn {F : FTy → Type} [FloatOps F] (main_arg0 : FVec F S32x4096 .f32) (main_arg1 : FVec F S4096x4096 .f32) (main_arg2 : FVec F S4096 .f32) (main_arg3 : FVec F S4096x4096 .f32) (main_arg4 : FVec F S131072 .f32) (main_arg5 : FVec F S131072 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_v13 main_v16
-- ==== Kernel.lean ====
abbrev S32x4096 : Shape := ⟨2, ![32, 4096]⟩
abbrev S4096x4096 : Shape := ⟨2, ![4096, 4096]⟩
abbrev S4096 : Shape := ⟨1, ![4096]⟩
abbrev S131072 : Shape := ⟨1, ![131072]⟩
abbrev S4096x32 : Shape := ⟨2, ![4096, 32]⟩
abbrev S1x4096 : Shape := ⟨2, ![1, 4096]⟩
abbrev S32x1024 : Shape := ⟨2, ![32, 1024]⟩
abbrev S1024x1024 : Shape := ⟨2, ![1024, 1024]⟩
abbrev S8x1024 : Shape := ⟨2, ![8, 1024]⟩
abbrev S1x1024 : Shape := ⟨2, ![1, 1024]⟩
abbrev S1024x8 : Shape := ⟨2, ![1024, 8]⟩
abbrev S1024x1 : Shape := ⟨2, ![1024, 1]⟩
abbrev S1024x128 : Shape := ⟨2, ![1024, 128]⟩
abbrev S1024 : Shape := ⟨1, ![1024]⟩

abbrev nBuf : Space → Nat
  | .hbm => 12
  | .vmem => 15
  | .smem => 0
  | _ => 0

abbrev bufTy : (tb : Table) → Fin (tcTables nBuf tb) → BufTy
  | .hbm, ⟨0, _⟩ => ⟨S32x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S131072, .f32⟩
  | .hbm, ⟨5, _⟩ => ⟨S131072, .f32⟩
  | .hbm, ⟨6, _⟩ => ⟨S4096x32, .f32⟩
  | .hbm, ⟨7, _⟩ => ⟨S32x4096, .f32⟩
  | .hbm, ⟨8, _⟩ => ⟨S4096x32, .f32⟩
  | .hbm, ⟨9, _⟩ => ⟨S32x4096, .f32⟩
  | .hbm, ⟨10, _⟩ => ⟨S1x4096, .f32⟩
  | .hbm, ⟨11, _⟩ => ⟨S32x4096, .f32⟩
  | .local _ .vmem, ⟨0, _⟩ => ⟨S32x1024, .f32⟩
  | .local _ .vmem, ⟨1, _⟩ => ⟨S32x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S1x1024, .f32⟩
  | .local _ .vmem, ⟨11, _⟩ => ⟨S1x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v450 : BitVec 1 := Scalar.cmpi .eq arg1 c3_i32
  let v451 : BitVec 32 := Scalar.extui v450
  let c0_i32_159 : BitVec 32 := 0#32
  let v452 : BitVec 1 := Scalar.cmpi .ne v451 c0_i32_159
  v452

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S131072_S4096x32 : S131072.ShapeCasts S4096x32
  transposes_S4096x32_S32x4096_1_0 : S4096x32.Transposes [1, 0] S32x4096
  shapeCasts_S4096_S1x4096 : S4096.ShapeCasts S1x4096
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  transposes_S8x1024_p1_0_S1024x8 : S8x1024.Transposes [1, 0] S1024x8
  slices_S1024x8_o0_0_S1024x1 : S1024x8.Slices ![0, 0] S1024x1
  inb_S1024x1024_S1024x128_0_0 : ∀ a, (![0, 0] : Fin 2 → Nat) a + S1024x128.size a ≤ S1024x1024.size a
  h_S1024x128 : 0 < S1024x128.numel
  reduces_S1024x128_S1024 : S1024x128.Reduces [1] S1024
  shapeCasts_S1024_S1024x1 : S1024.ShapeCasts S1024x1
  broadcasts_S1024x1_S1024x128 : S1024x1.Broadcasts S1024x128
  bitsLt_bf16_f32 : FTy.bits .bf16 < FTy.bits .f32
  slices_S1024x8_o0_1_S1024x1 : S1024x8.Slices ![0, 1] S1024x1
  inb_S1024x1024_S1024x128_0_128 : ∀ a, (![0, 128] : Fin 2 → Nat) a + S1024x128.size a ≤ S1024x1024.size a
  slices_S1024x8_o0_2_S1024x1 : S1024x8.Slices ![0, 2] S1024x1
  inb_S1024x1024_S1024x128_0_256 : ∀ a, (![0, 256] : Fin 2 → Nat) a + S1024x128.size a ≤ S1024x1024.size a
  slices_S1024x8_o0_3_S1024x1 : S1024x8.Slices ![0, 3] S1024x1
  inb_S1024x1024_S1024x128_0_384 : ∀ a, (![0, 384] : Fin 2 → Nat) a + S1024x128.size a ≤ S1024x1024.size a
  slices_S1024x8_o0_4_S1024x1 : S1024x8.Slices ![0, 4] S1024x1
  inb_S1024x1024_S1024x128_0_512 : ∀ a, (![0, 512] : Fin 2 → Nat) a + S1024x128.size a ≤ S1024x1024.size a
  slices_S1024x8_o0_5_S1024x1 : S1024x8.Slices ![0, 5] S1024x1
  inb_S1024x1024_S1024x128_0_640 : ∀ a, (![0, 640] : Fin 2 → Nat) a + S1024x128.size a ≤ S1024x1024.size a
  slices_S1024x8_o0_6_S1024x1 : S1024x8.Slices ![0, 6] S1024x1
  inb_S1024x1024_S1024x128_0_768 : ∀ a, (![0, 768] : Fin 2 → Nat) a + S1024x128.size a ≤ S1024x1024.size a
  slices_S1024x8_o0_7_S1024x1 : S1024x8.Slices ![0, 7] S1024x1
  inb_S1024x1024_S1024x128_0_896 : ∀ a, (![0, 896] : Fin 2 → Nat) a + S1024x128.size a ≤ S1024x1024.size a
  concatenates_S1024x128_S1024x128_S1024x128_S1024x128_S1024x128_S1024x128_S1024x128_S1024x128_S1024x1024_d1 : Shape.Concatenates [S1024x128, S1024x128, S1024x128, S1024x128, S1024x128, S1024x128, S1024x128, S1024x128] S1024x1024 1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S32x1024 : S1x1024.Broadcasts S32x1024
  dot_S32x1024_S1024x1024_S32x1024_1_1_0_0_n_n_wf : DotDims.WF S32x1024 S1024x1024 S32x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S32x4096.size a
  hwx0_0 : ∀ i : grid0.Coords, EltTy.bits .f32 = 32 ∨ (Rect.block (s := S32x4096) S32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S32x4096.size a
  hwx0_3 : ∀ i : grid0.Coords, EltTy.bits .f32 = 32 ∨ (Rect.block (s := S32x4096) S8x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S32x4096.size a
  hwx0_4 : ∀ i : grid0.Coords, EltTy.bits .f32 = 32 ∨ (Rect.block (s := S32x4096) S8x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x1024.size a ≤ S32x4096.size a
  hwx0_6 : ∀ i : grid0.Coords, EltTy.bits .f32 = 32 ∨ (Rect.block (s := S32x4096) S32x1024.size (cc0_transform_6 i) (hinb0_6 i)).WholeWords (EltTy.packing .f32)

variable [Facts₀]

def dot_S32x1024_S1024x1024_S32x1024_1_1_0_0_n_n : DotDims S32x1024 S1024x1024 S32x1024 where
  lhsContracting := [1]
  rhsContracting := [1]
  lhsNonContracting := [0]
  rhsNonContracting := [0]
  lhsBatch := []
  rhsBatch := []
  wf := dot_S32x1024_S1024x1024_S32x1024_1_1_0_0_n_n_wf

abbrev win0_0 : Pipeline.Window sig grid0 :=
  Pipeline.Window.ofSpec (Memref.whole main_arg0) S32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S8x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S32x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S32x4096 : Shape := ⟨2, ![32, 4096]⟩
abbrev S4096x4096 : Shape := ⟨2, ![4096, 4096]⟩
abbrev S4096 : Shape := ⟨1, ![4096]⟩
abbrev S131072 : Shape := ⟨1, ![131072]⟩
abbrev S_ : Shape := ⟨0, ![]⟩
abbrev S131072x128 : Shape := ⟨2, ![131072, 128]⟩
abbrev S131072x1 : Shape := ⟨2, ![131072, 1]⟩
abbrev S1x4096 : Shape := ⟨2, ![1, 4096]⟩

abbrev nBuf : Space → Nat
  | .hbm => 96
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S131072, .f32⟩
  | .hbm, ⟨5, _⟩ => ⟨S131072, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S131072, .f32⟩
  | .hbm, ⟨10, _⟩ => ⟨S131072, .f32⟩
  | .hbm, ⟨11, _⟩ => ⟨S_, .f32⟩
  | .hbm, ⟨12, _⟩ => ⟨S131072, .f32⟩
  | .hbm, ⟨13, _⟩ => ⟨S131072, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S131072, .f32⟩
  | .hbm, ⟨18, _⟩ => ⟨S131072, .f32⟩
  | .hbm, ⟨19, _⟩ => ⟨S_, .f32⟩
  | .hbm, ⟨20, _⟩ => ⟨S131072, .f32⟩
  | .hbm, ⟨21, _⟩ => ⟨S131072, .f32⟩
  | .hbm, ⟨22, _⟩ => ⟨S131072x128, .f32⟩
  | .hbm, ⟨23, _⟩ => ⟨S131072x128, .f32⟩
  | .hbm, ⟨24, _⟩ => ⟨S_, .f32⟩
  | .hbm, ⟨25, _⟩ => ⟨S131072, .f32⟩
  | .hbm, ⟨26, _⟩ => ⟨S_, .f32⟩
  | .hbm, ⟨27, _⟩ => ⟨S131072, .f32⟩
  | .hbm, ⟨28, _⟩ => ⟨S131072, .f32⟩
  | .hbm, ⟨29, _⟩ => ⟨S_, .f32⟩
  | .hbm, ⟨30, _⟩ => ⟨S131072, .f32⟩
  | .hbm, ⟨31, _⟩ => ⟨S131072, .f32⟩
  | .hbm, ⟨32, _⟩ => ⟨S131072, .f32⟩
  | .hbm, ⟨33, _⟩ => ⟨S_, .f32⟩
  | .hbm, ⟨34, _⟩ => ⟨S131072, .f32⟩
  | .hbm, ⟨35, _⟩ => ⟨S_, .f32⟩
  | .hbm, ⟨36, _⟩ => ⟨S131072, .f32⟩
  | .hbm, ⟨37, _⟩ => ⟨S131072, .f32⟩
  | .hbm, ⟨38, _⟩ => ⟨S_, .f32⟩
  | .hbm, ⟨39, _⟩ => ⟨S131072, .f32⟩
  | .hbm, ⟨40, _⟩ => ⟨S131072, .f32⟩
  | .hbm, ⟨41, _⟩ => ⟨S131072, .f32⟩
  | .hbm, ⟨42, _⟩ => ⟨S131072, .f32⟩
  | .hbm, ⟨43, _⟩ => ⟨S131072, .f32⟩
  | .hbm, ⟨44, _⟩ => ⟨S_, .f32⟩
  | .hbm, ⟨45, _⟩ => ⟨S131072, .f32⟩
  | .hbm, ⟨46, _⟩ => ⟨S131072, .i1⟩
  | .hbm, ⟨47, _⟩ => ⟨S_, .f32⟩
  | .hbm, ⟨48, _⟩ => ⟨S131072, .f32⟩
  | .hbm, ⟨49, _⟩ => ⟨S131072, .i1⟩
  | .hbm, ⟨50, _⟩ => ⟨S131072, .i1⟩
  | .hbm, ⟨51, _⟩ => ⟨S_, .f32⟩
  | .hbm, ⟨52, _⟩ => ⟨S_, .f32⟩
  | .hbm, ⟨53, _⟩ => ⟨S131072, .f32⟩
  | .hbm, ⟨54, _⟩ => ⟨S131072, .f32⟩
  | .hbm, ⟨55, _⟩ => ⟨S_, .f32⟩
  | .hbm, ⟨56, _⟩ => ⟨S_, .f32⟩
  | .hbm, ⟨57, _⟩ => ⟨S131072, .f32⟩
  | .hbm, ⟨58, _⟩ => ⟨S131072, .f32⟩
  | .hbm, ⟨59, _⟩ => ⟨S131072, .f32⟩
  | .hbm, ⟨60, _⟩ => ⟨S_, .f32⟩
  | .hbm, ⟨61, _⟩ => ⟨S131072, .f32⟩
  | .hbm, ⟨62, _⟩ => ⟨S131072, .f32⟩
  | .hbm, ⟨63, _⟩ => ⟨S131072, .f32⟩
  | .hbm, ⟨64, _⟩ => ⟨S131072, .f32⟩
  | .hbm, ⟨65, _⟩ => ⟨S131072, .f32⟩
  | .hbm, ⟨66, _⟩ => ⟨S131072, .f32⟩
  | .hbm, ⟨67, _⟩ => ⟨S131072, .f32⟩
  | .hbm, ⟨68, _⟩ => ⟨S131072x1, .f32⟩
  | .hbm, ⟨69, _⟩ => ⟨S131072x1, .f32⟩
  | .hbm, ⟨70, _⟩ => ⟨S131072x128, .f32⟩
  | .hbm, ⟨71, _⟩ => ⟨S131072x128, .f32⟩
  | .hbm, ⟨72, _⟩ => ⟨S131072x128, .f32⟩
  | .hbm, ⟨73, _⟩ => ⟨S131072x128, .f32⟩
  | .hbm, ⟨74, _⟩ => ⟨S131072x128, .f32⟩
  | .hbm, ⟨75, _⟩ => ⟨S131072x128, .f32⟩
  | .hbm, ⟨76, _⟩ => ⟨S131072x128, .f32⟩
  | .hbm, ⟨77, _⟩ => ⟨S131072x128, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S131072x128, .f32⟩
  | .hbm, ⟨82, _⟩ => ⟨S131072x128, .f32⟩
  | .hbm, ⟨83, _⟩ => ⟨S_, .f32⟩
  | .hbm, ⟨84, _⟩ => ⟨S131072x128, .f32⟩
  | .hbm, ⟨85, _⟩ => ⟨S131072x128, .f32⟩
  | .hbm, ⟨86, _⟩ => ⟨S131072x128, .f32⟩
  | .hbm, ⟨87, _⟩ => ⟨S131072x128, .f32⟩
  | .hbm, ⟨88, _⟩ => ⟨S131072x128, .f32⟩
  | .hbm, ⟨89, _⟩ => ⟨S131072x128, .f32⟩
  | .hbm, ⟨90, _⟩ => ⟨S4096x4096, .f32⟩
  | .hbm, ⟨91, _⟩ => ⟨S4096x4096, .f32⟩
  | .hbm, ⟨92, _⟩ => ⟨S32x4096, .f32⟩
  | .hbm, ⟨93, _⟩ => ⟨S1x4096, .f32⟩
  | .hbm, ⟨94, _⟩ => ⟨S32x4096, .f32⟩
  | .hbm, ⟨95, _⟩ => ⟨S32x4096, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_cst_1 : Ref sig .tc := ⟨.hbm, 14, rfl⟩
abbrev main_cst_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst_3 : Ref sig .tc := ⟨.hbm, 24, rfl⟩
abbrev main_v4 : Ref sig .tc := ⟨.hbm, 25, rfl⟩
abbrev main_cst_4 : Ref sig .tc := ⟨.hbm, 26, rfl⟩
abbrev main_v5 : Ref sig .tc := ⟨.hbm, 27, rfl⟩
abbrev main_v6 : Ref sig .tc := ⟨.hbm, 28, rfl⟩
abbrev main_cst_5 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst_6 : Ref sig .tc := ⟨.hbm, 33, rfl⟩
abbrev main_v10 : Ref sig .tc := ⟨.hbm, 34, rfl⟩
abbrev main_cst_7 : Ref sig .tc := ⟨.hbm, 35, rfl⟩
abbrev main_v11 : Ref sig .tc := ⟨.hbm, 36, rfl⟩
abbrev main_v12 : Ref sig .tc := ⟨.hbm, 37, rfl⟩
abbrev main_cst_8 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_9 : Ref sig .tc := ⟨.hbm, 44, rfl⟩
abbrev main_v18 : Ref sig .tc := ⟨.hbm, 45, rfl⟩
abbrev main_v19 : Ref sig .tc := ⟨.hbm, 46, rfl⟩
abbrev main_cst_10 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_11 : Ref sig .tc := ⟨.hbm, 51, rfl⟩
abbrev main_call2_v0 : Ref sig .tc := ⟨.hbm, 52, rfl⟩
abbrev main_call2_v1 : Ref sig .tc := ⟨.hbm, 53, rfl⟩
abbrev main_v23 : Ref sig .tc := ⟨.hbm, 54, rfl⟩
abbrev main_cst_12 : Ref sig .tc := ⟨.hbm, 55, rfl⟩
abbrev main_call3_v0 : Ref sig .tc := ⟨.hbm, 56, rfl⟩
abbrev main_call3_v1 : Ref sig .tc := ⟨.hbm, 57, rfl⟩
abbrev main_v24 : Ref sig .tc := ⟨.hbm, 58, rfl⟩
abbrev main_v25 : Ref sig .tc := ⟨.hbm, 59, rfl⟩
abbrev main_cst_13 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_14 : Ref sig .tc := ⟨.hbm, 78, rfl⟩
abbrev main_cst_15 : Ref sig .tc := ⟨.hbm, 79, rfl⟩
abbrev main_call6_v0 : Ref sig .tc := ⟨.hbm, 80, rfl⟩
abbrev main_call6_v1 : Ref sig .tc := ⟨.hbm, 81, rfl⟩
abbrev main_call6_v2 : Ref sig .tc := ⟨.hbm, 82, rfl⟩
abbrev main_call6_v3 : Ref sig .tc := ⟨.hbm, 83, rfl⟩
abbrev main_call6_v4 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  shapeCasts_S4096x4096_S131072x128 : S4096x4096.ShapeCasts S131072x128
  reducesTo_S131072x128_S131072_d1 : S131072x128.ReducesTo [1] S131072
  h_S_ : 0 < S_.numel
  bcast_S131072_S131072x1_0 : S131072.BroadcastsInDim S131072x1 (![0] : Fin 1 → Fin S131072x1.rank)
  bcast_S131072x1_S131072x128_0_1 : S131072x1.BroadcastsInDim S131072x128 (![0, 1] : Fin 2 → Fin S131072x128.rank)
  bcast_S_S131072x128 : S_.BroadcastsInDim S131072x128 (![] : Fin 0 → Fin S131072x128.rank)
  shapeCasts_S131072x128_S4096x4096 : S131072x128.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S32x4096_0_1 : S1x4096.BroadcastsInDim S32x4096 (![0, 1] : Fin 2 → Fin S32x4096.rank)
  dot_S32x4096_S4096x4096_S32x4096_1_0_0_1_n_n_wf : DotDims.WF S32x4096 S4096x4096 S32x4096 [1] [0] [0] [1] [] []

variable [Facts₀]

def dot_S32x4096_S4096x4096_S32x4096_1_0_0_1_n_n : DotDims S32x4096 S4096x4096 S32x4096 where
  lhsContracting := [1]
  rhsContracting := [0]
  lhsNonContracting := [0]
  rhsNonContracting := [1]
  lhsBatch := []
  rhsBatch := []
  wf := dot_S32x4096_S4096x4096_S32x4096_1_0_0_1_n_n_wf

class Facts : Prop extends Facts₀ where

variable [Facts]
-- ==== Proof.Pieces.lean ====
import proofs.«176642_j33122787787467_2_alg».proof.Proof.Gen.KernelIdeal.Value
import Idealize.ShloMosaic.Lib.Pipeline.Value
import Idealize.ShloMosaic.Lib.Tactic
set_option maxRecDepth 16384

noncomputable section

open Idealize.ShloMosaic Idealize.ShloMosaic.TcCoe Idealize.SL.Sem
open Idealize.ShloMosaic.Pipeline (Dat)

/-!
  What one grid point's body leaves behind, as pure functions of the blocks it loads.

  The body dequantizes the eight 128-column groups of the weight tile (`grp0 … grp6` and the last group's four
  ingredients), concatenates them, multiplies the activation block with the result and adds the product to the
  accumulator: `stepK`. At the first point of a row of the grid the accumulator is the zero block; at the last
  the bias row is added and the sum is the output block.
-/
namespace Cert.KernelIdeal.Pieces
open Cert.KernelIdeal Cert.KernelIdeal.Gen
variable {F : FTy → Type} [FloatOps F]

theorem hz : (![0, 0] : Fin 2 → Nat) = fun _ => 0 := funext fun a => by fin_cases a <;> rfl

/-- The dequantized groups 0 … 6 of the weight tile, from the weight, rounding-offset and scale blocks. -/
def grp0 (x1 x2 : Vec F S1024x1024 .f32) (x3 x4 : Vec F S8x1024 .f32) : FVec F S1024x128 .bf16 :=
  k0_pay10 (View.ld x1 (Rect.unit (s := S1024x1024) ![0, 0] S1024x128.size inb_S1024x1024_S1024x128_0_0)) (View.ld x2 (Rect.unit (s := S1024x1024) ![0, 0] S1024x128.size inb_S1024x1024_S1024x128_0_0)) (k0_pay8 x3 x4 (View.ld x1 (Rect.unit (s := S1024x1024) ![0, 0] S1024x128.size inb_S1024x1024_S1024x128_0_0))) (k0_pay9 x3 x4 (View.ld x1 (Rect.unit (s := S1024x1024) ![0, 0] S1024x128.size inb_S1024x1024_S1024x128_0_0)))
def grp1 (x1 x2 : Vec F S1024x1024 .f32) (x3 x4 : Vec F S8x1024 .f32) : FVec F S1024x128 .bf16 :=
  k0_pay15 (k0_pay11 (k0_pay4 x3)) (k0_pay12 (k0_pay5 x4)) (View.ld x1 (Rect.unit (s := S1024x1024) ![0, 128] S1024x128.size inb_S1024x1024_S1024x128_0_128)) (View.ld x2 (Rect.unit (s := S1024x1024) ![0, 128] S1024x128.size inb_S1024x1024_S1024x128_0_128)) (k0_pay13 (View.ld x1 (Rect.unit (s := S1024x1024) ![0, 128] S1024x128.size inb_S1024x1024_S1024x128_0_128))) (k0_pay14 (View.ld x1 (Rect.unit (s := S1024x1024) ![0, 128] S1024x128.size inb_S1024x1024_S1024x128_0_128)))
    (FloatOps.ofBits FTy.f32 1065353216#32)
def grp2 (x1 x2 : Vec F S1024x1024 .f32) (x3 x4 : Vec F S8x1024 .f32) : FVec F S1024x128 .bf16 :=
  k0_pay29 (k0_pay24 (k0_pay16 (k0_pay4 x3)) (k0_pay17 (k0_pay5 x4)) (View.ld x1 (Rect.unit (s := S1024x1024) ![0, 256] S1024x128.size inb_S1024x1024_S1024x128_0_256)))
    (k0_pay26 (k0_pay16 (k0_pay4 x3)) (k0_pay17 (k0_pay5 x4)) (View.ld x1 (Rect.unit (s := S1024x1024) ![0, 256] S1024x128.size inb_S1024x1024_S1024x128_0_256)))
    (k0_pay27 (k0_pay16 (k0_pay4 x3)) (k0_pay17 (k0_pay5 x4)) (View.ld x1 (Rect.unit (s := S1024x1024) ![0, 256] S1024x128.size inb_S1024x1024_S1024x128_0_256)) (View.ld x2 (Rect.unit (s := S1024x1024) ![0, 256] S1024x128.size inb_S1024x1024_S1024x128_0_256))) k0_pay28
def grp3 (x1 x2 : Vec F S1024x1024 .f32) (x3 x4 : Vec F S8x1024 .f32) : FVec F S1024x128 .bf16 :=
  k0_pay39 (View.ld x1 (Rect.unit (s := S1024x1024) ![0, 384] S1024x128.size inb_S1024x1024_S1024x128_0_384)) (View.ld x2 (Rect.unit (s := S1024x1024) ![0, 384] S1024x128.size inb_S1024x1024_S1024x128_0_384)) (k0_pay36 (k0_pay4 x3) (k0_pay5 x4) (View.ld x1 (Rect.unit (s := S1024x1024) ![0, 384] S1024x128.size inb_S1024x1024_S1024x128_0_384)))
    (k0_pay37 (k0_pay4 x3) (k0_pay5 x4) (View.ld x1 (Rect.unit (s := S1024x1024) ![0, 384] S1024x128.size inb_S1024x1024_S1024x128_0_384))) (k0_pay38 (k0_pay4 x3) (k0_pay5 x4) (View.ld x1 (Rect.unit (s := S1024x1024) ![0, 384] S1024x128.size inb_S1024x1024_S1024x128_0_384)))
def grp4 (x1 x2 : Vec F S1024x1024 .f32) (x3 x4 : Vec F S8x1024 .f32) : FVec F S1024x128 .bf16 :=
  k0_pay47 (View.ld x1 (Rect.unit (s := S1024x1024) ![0, 512] S1024x128.size inb_S1024x1024_S1024x128_0_512)) (View.ld x2 (Rect.unit (s := S1024x1024) ![0, 512] S1024x128.size inb_S1024x1024_S1024x128_0_512)) (k0_pay42 (k0_pay4 x3) (k0_pay5 x4) (View.ld x1 (Rect.unit (s := S1024x1024) ![0, 512] S1024x128.size inb_S1024x1024_S1024x128_0_512)))
    (k0_pay44 (k0_pay4 x3) (k0_pay5 x4) (View.ld x1 (Rect.unit (s := S1024x1024) ![0, 512] S1024x128.size inb_S1024x1024_S1024x128_0_512))) (k0_pay45 (k0_pay4 x3) (k0_pay5 x4) (View.ld x1 (Rect.unit (s := S1024x1024) ![0, 512] S1024x128.size inb_S1024x1024_S1024x128_0_512))) k0_pay46
def grp5 (x1 x2 : Vec F S1024x1024 .f32) (x3 x4 : Vec F S8x1024 .f32) : FVec F S1024x128 .bf16 :=
  k0_pay52 (View.ld x1 (Rect.unit (s := S1024x1024) ![0, 640] S1024x128.size inb_S1024x1024_S1024x128_0_640)) (View.ld x2 (Rect.unit (s := S1024x1024) ![0, 640] S1024x128.size inb_S1024x1024_S1024x128_0_640)) (k0_pay50 (k0_pay4 x3) (k0_pay5 x4) (View.ld x1 (Rect.unit (s := S1024x1024) ![0, 640] S1024x128.size inb_S1024x1024_S1024x128_0_640)))
    (k0_pay51 (k0_pay4 x3) (k0_pay5 x4) (View.ld x1 (Rect.unit (s := S1024x1024) ![0, 640] S1024x128.size inb_S1024x1024_S1024x128_0_640)))
def grp6 (x1 x2 : Vec F S1024x1024 .f32) (x3 x4 : Vec F S8x1024 .f32) : FVec F S1024x128 .bf16 :=
  k0_pay57 (k0_pay53 (k0_pay4 x3)) (k0_pay54 (k0_pay5 x4)) (View.ld x1 (Rect.unit (s := S1024x1024) ![0, 768] S1024x128.size inb_S1024x1024_S1024x128_0_768)) (View.ld x2 (Rect.unit (s := S1024x1024) ![0, 768] S1024x128.size inb_S1024x1024_S1024x128_0_768)) (k0_pay55 (View.ld x1 (Rect.unit (s := S1024x1024) ![0, 768] S1024x128.size inb_S1024x1024_S1024x128_0_768))) (k0_pay56 (View.ld x1 (Rect.unit (s := S1024x1024) ![0, 768] S1024x128.size inb_S1024x1024_S1024x128_0_768)))
    (FloatOps.ofBits FTy.f32 1065353216#32)
/-- The last group's step, zero point, clamped-from-below sum and upper clamp. -/
def scale7 (x1 : Vec F S1024x1024 .f32) (x3 x4 : Vec F S8x1024 .f32) : FVec F S1024x1 .f32 :=
  k0_pay66 (k0_pay58 (k0_pay4 x3)) (k0_pay59 (k0_pay5 x4)) (View.ld x1 (Rect.unit (s := S1024x1024) ![0, 896] S1024x128.size inb_S1024x1024_S1024x128_0_896))
def zp7 (x1 : Vec F S1024x1024 .f32) (x3 x4 : Vec F S8x1024 .f32) : FVec F S1024x1 .f32 :=
  k0_pay68 (k0_pay58 (k0_pay4 x3)) (k0_pay59 (k0_pay5 x4)) (View.ld x1 (Rect.unit (s := S1024x1024) ![0, 896] S1024x128.size inb_S1024x1024_S1024x128_0_896))
def low7 (x1 x2 : Vec F S1024x1024 .f32) (x3 x4 : Vec F S8x1024 .f32) : FVec F S1024x128 .f32 :=
  k0_pay69 (k0_pay58 (k0_pay4 x3)) (k0_pay59 (k0_pay5 x4)) (View.ld x1 (Rect.unit (s := S1024x1024) ![0, 896] S1024x128.size inb_S1024x1024_S1024x128_0_896)) (View.ld x2 (Rect.unit (s := S1024x1024) ![0, 896] S1024x128.size inb_S1024x1024_S1024x128_0_896))

/-- One point's step: the accumulator plus the activation block times the dequantized weight tile. -/
def stepK (x0 : Vec F S32x1024 .f32) (x1 x2 : Vec F S1024x1024 .f32) (x3 x4 : Vec F S8x1024 .f32) (acc : Vec F S32x1024 .f32) :
    FVec F S32x1024 .f32 :=
  k0_pay1 (grp0 x1 x2 x3 x4) (grp1 x1 x2 x3 x4) (grp2 x1 x2 x3 x4) (grp3 x1 x2 x3 x4) (grp4 x1 x2 x3 x4) (grp5 x1 x2 x3 x4)
    (grp6 x1 x2 x3 x4) (scale7 x1 x3 x4) (zp7 x1 x3 x4) (low7 x1 x2 x3 x4) k0_pay70 x0 acc

/-- At a middle point of a grid row the accumulator scratch ends at the step over what the point before left. -/
theorem sout_B (c : Dev nD) (i : grid0.Coords) (arg2 : Memref sig .tc .vmem S32x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S32x1024 .f32) (harg8 : arg8.IsWhole) (arg9 : Memref sig .tc .vmem S32x1024 .f32) (harg9 : arg9.IsWhole) (hc0 : ¬cond0_0 i) (hc1 : ¬cond0_1 i)
    (x0 : Vec F S32x1024 .f32) (x1 : Vec F S1024x1024 .f32) (x2 : Vec F S1024x1024 .f32) (x3 : Vec F S8x1024 .f32) (x4 : Vec F S8x1024 .f32) (x5 : Vec F S1x1024 .f32) (xs0 : Vec F S32x1024 .f32) :
    sout0_B_0 c i arg2 harg2 arg3 harg3 arg4 harg4 arg5 harg5 arg6 harg6 arg7 harg7 arg8 harg8 arg9 harg9 hc0 hc1 x0 x1 x2 x3 x4 x5 xs0 = stepK x0 x1 x2 x3 x4 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero hz]
  simp only [View.readAt_eq_ld, harg2.read_unread, harg3.read_unread, harg4.read_unread, harg5.read_unread, harg6.read_unread, harg9.read_unread, View.ld_unit_zero (S := S32x1024) hz, View.ld_unit_zero (S := S8x1024) hz]
  rfl

/-- At the first point of a grid row the scratch is zeroed first: the step over the zero block. -/
theorem sout_A (c : Dev nD) (i : grid0.Coords) (arg2 : Memref sig .tc .vmem S32x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S32x1024 .f32) (harg8 : arg8.IsWhole) (arg9 : Memref sig .tc .vmem S32x1024 .f32) (harg9 : arg9.IsWhole) (hc0 : cond0_0 i) (hc1 : ¬cond0_1 i)
    (x0 : Vec F S32x1024 .f32) (x1 : Vec F S1024x1024 .f32) (x2 : Vec F S1024x1024 .f32) (x3 : Vec F S8x1024 .f32) (x4 : Vec F S8x1024 .f32) (x5 : Vec F S1x1024 .f32) :
    sout0_A_0 c i arg2 harg2 arg3 harg3 arg4 harg4 arg5 harg5 arg6 harg6 arg7 harg7 arg8 harg8 arg9 harg9 hc0 hc1 x0 x1 x2 x3 x4 x5 = stepK x0 x1 x2 x3 x4 k0_pay3 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S32x1024) hz]
  simp only [View.readCov_unit_zero (S := S32x1024) _ hz, View.readAt_eq_ld, harg2.read_unread, harg3.read_unread, harg4.read_unread, harg5.read_unread, harg6.read_unread, harg9.read_unread, View.ld_unit_zero (S := S32x1024) hz, View.ld_unit_zero (S := S8x1024) hz]
  rfl

/-- At the last point of a grid row the scratch again ends at the step … -/
theorem sout_C (c : Dev nD) (i : grid0.Coords) (arg2 : Memref sig .tc .vmem S32x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S32x1024 .f32) (harg8 : arg8.IsWhole) (arg9 : Memref sig .tc .vmem S32x1024 .f32) (harg9 : arg9.IsWhole) (hc0 : ¬cond0_0 i) (hc1 : cond0_1 i)
    (x0 : Vec F S32x1024 .f32) (x1 : Vec F S1024x1024 .f32) (x2 : Vec F S1024x1024 .f32) (x3 : Vec F S8x1024 .f32) (x4 : Vec F S8x1024 .f32) (x5 : Vec F S1x1024 .f32) (xs0 : Vec F S32x1024 .f32) :
    sout0_C_0 c i arg2 harg2 arg3 harg3 arg4 harg4 arg5 harg5 arg6 harg6 arg7 harg7 arg8 harg8 arg9 harg9 hc0 hc1 x0 x1 x2 x3 x4 x5 xs0 = stepK x0 x1 x2 x3 x4 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread, harg9.read_unread, View.ld_unit_zero (S := S32x1024) hz, View.ld_unit_zero (S := S8x1024) hz]
  rfl

/-- … and the output block at the step plus the bias row. -/
theorem out_C (c : Dev nD) (i : grid0.Coords) (arg2 : Memref sig .tc .vmem S32x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S32x1024 .f32) (harg8 : arg8.IsWhole) (arg9 : Memref sig .tc .vmem S32x1024 .f32) (harg9 : arg9.IsWhole) (hc0 : ¬cond0_0 i) (hc1 : cond0_1 i)
    (x0 : Vec F S32x1024 .f32) (x1 : Vec F S1024x1024 .f32) (x2 : Vec F S1024x1024 .f32) (x3 : Vec F S8x1024 .f32) (x4 : Vec F S8x1024 .f32) (x5 : Vec F S1x1024 .f32) (xs0 : Vec F S32x1024 .f32) :
    out0_C_6 c i arg2 harg2 arg3 harg3 arg4 harg4 arg5 harg5 arg6 harg6 arg7 harg7 arg8 harg8 arg9 harg9 hc0 hc1 x0 x1 x2 x3 x4 x5 xs0 = k0_pay2 (stepK x0 x1 x2 x3 x4 xs0) x5 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz]
  simp only [View.readCov_unit_zero (S := S32x1024) _ hz, View.readAt_eq_ld, harg2.read_unread, harg3.read_unread, harg4.read_unread, harg5.read_unread, harg6.read_unread, harg7.read_unread, harg9.read_unread, View.ld_unit_zero (S := S32x1024) hz, View.ld_unit_zero (S := S8x1024) hz, View.ld_unit_zero (S := S1x1024) hz]
  rfl

end Cert.KernelIdeal.Pieces
end
-- ==== Proof.QuantSpec.lean ====
/-
  The arithmetic of one quantization group, on the extended reals, as both programs spell it.

  A group is 128 consecutive entries of one weight row. From the group's minimum and maximum and the two clipped
  scale parameters both programs form the same lower and upper ends `lo ≤ 0 ≤ hi`, the same zero point's
  numerator `wmin` and the same step `scale = (wmax - wmin) / 15` (with the ends replaced by `-1, 1` when both
  vanish). They differ in two places only: the kernel multiplies by the reciprocal `1 / scale` where the
  reference divides by `scale`, and the reference rounds through `(round y - y) + y` where the kernel rounds
  directly. On real arguments with a nonzero real step the two agree: `x / s = x · (1 / s)` and
  `(round y - y) + y = round y`. That the step is a nonzero real follows from `lo ≤ 0 ≤ hi`: the ends can
  only coincide at zero, and then they are replaced by `-1, 1`.
-/
import Idealize.ShloMosaic.PureOps.Ideal
import Idealize.ShloMosaic.PureOps.Ideal.Laws
import Idealize.ShloMosaic.Lib.ValueIdx

noncomputable section

namespace Cert.QuantSpec

open Idealize.ShloMosaic

/-! ## The literals -/

abbrev cNeg1 : EReal := Ideal.ofBits .f32 0xBF800000#32
abbrev cZero : EReal := Ideal.ofBits .f32 0x00000000#32
abbrev cOne : EReal := Ideal.ofBits .f32 0x3F800000#32
abbrev c15 : EReal := Ideal.ofBits .f32 0x41700000#32
abbrev cTop : EReal := Ideal.ofBits .f32 0x7F800000#32
abbrev cBot : EReal := Ideal.ofBits .f32 0xFF800000#32

theorem cZero_eq : cZero = 0 := Ideal.ofBits_zero_f32
theorem cNeg1_eq : cNeg1 = ((-1 : ℝ) : EReal) := by
  simp [Ideal.ofBits, Ideal.ieee]
  rw [← EReal.coe_mul, ← EReal.coe_one]; congr 1; norm_num
theorem cOne_eq : cOne = ((1 : ℝ) : EReal) := by
  simp [Ideal.ofBits, Ideal.ieee]
  rw [← EReal.coe_mul, ← EReal.coe_one]; congr 1; norm_num
theorem c15_eq : c15 = ((15 : ℝ) : EReal) := by
  simp [Ideal.ofBits, Ideal.ieee]
  rw [← EReal.coe_mul]; congr 1; norm_num
theorem cTop_eq : cTop = ⊤ := by simp [Ideal.ofBits, Ideal.ieee]
theorem cBot_eq : cBot = ⊥ := by simp [Ideal.ofBits, Ideal.ieee]

theorem coe_min (a b : ℝ) : min (a : EReal) (b : EReal) = ((min a b : ℝ) : EReal) :=
  (EReal.coe_strictMono.monotone.map_min).symm
theorem coe_max (a b : ℝ) : max (a : EReal) (b : EReal) = ((max a b : ℝ) : EReal) :=
  (EReal.coe_strictMono.monotone.map_max).symm

/-! ## Rounding -/

/-- Rounding to the nearest integer, ties to even, on the extended reals. -/
abbrev rnd (x : EReal) : EReal := Ideal.liftRound Ideal.roundHalfEven x

/-- The reference's rounding: `(round y - y) + y`. -/
def rste (y : EReal) : EReal := (rnd y - y) + y

theorem rnd_coe (r : ℝ) : rnd (r : EReal) = ((Ideal.roundHalfEven r : ℝ) : EReal) := rfl

/-- On a real the detour through `- y + y` cancels. -/
theorem rste_coe (r : ℝ) : rste (r : EReal) = rnd (r : EReal) := by
  unfold rste
  rw [rnd_coe, ← EReal.coe_sub, ← EReal.coe_add, sub_add_cancel]

/-! ## The group's ends, zero point and step -/

/-- A scale parameter clipped to `[-1, 0]`. -/
def clipU (x : EReal) : EReal := min cZero (max cNeg1 x)

/-- The lower end: the group's minimum, capped at zero, shrunk by `1 + mn`. -/
def loTmp (gmin mn : EReal) : EReal := min gmin cZero * (mn + cOne)
/-- The upper end: the group's maximum, floored at zero, shrunk by `1 + mx`. -/
def hiTmp (gmax mx : EReal) : EReal := max gmax cZero * (mx + cOne)

/-- Both ends vanish. -/
def degen (lo hi : EReal) : BitVec 1 :=
  IntOp.andi (Ideal.cmp .oeq (min hi lo) cZero) (Ideal.cmp .oeq (max hi lo) cZero)
def wminOf (lo hi : EReal) : EReal := Scalar.select (degen lo hi) cNeg1 (min hi lo)
def wmaxOf (lo hi : EReal) : EReal := Scalar.select (degen lo hi) cOne (max hi lo)
def scaleOf (lo hi : EReal) : EReal := Ideal.div (wmaxOf lo hi - wminOf lo hi) c15

/-- The kernel's dequantized entry: reciprocal, product, direct rounding. -/
def qKer (s wm w v : EReal) : EReal :=
  s * (min c15 (max cZero (rnd (w * Ideal.div cOne s + v) + rnd ((cZero - wm) * Ideal.div cOne s)))
        - rnd ((cZero - wm) * Ideal.div cOne s))
/-- The reference's: quotient, rounding through `(round y - y) + y`. -/
def qRef (s wm w v : EReal) : EReal :=
  s * (min c15 (max cZero (rste (Ideal.div w s + v) + rste (Ideal.div (-wm) s))) - rste (Ideal.div (-wm) s))

/-- With a nonzero real step and real entries the two dequantized entries are one number. -/
theorem qKer_eq_qRef {s : ℝ} (hs : s ≠ 0) (wm w v : ℝ) :
    qKer (s : EReal) (wm : EReal) (w : EReal) (v : EReal) = qRef (s : EReal) (wm : EReal) (w : EReal) (v : EReal) := by
  unfold qKer qRef
  simp only [Ideal.div_coe hs]
  have e1 : cOne * ((1 / s : ℝ) : EReal) = ((1 / s : ℝ) : EReal) := by
    rw [cOne_eq, ← EReal.coe_mul, one_mul]
  have e2 : cZero - (wm : EReal) = -(wm : EReal) := by rw [cZero_eq]; exact zero_sub _
  have e3 : (w : EReal) * ((1 / s : ℝ) : EReal) + (v : EReal) = ((w * (1 / s) + v : ℝ) : EReal) := by
    rw [EReal.coe_add, EReal.coe_mul]
  have e4 : -(wm : EReal) * ((1 / s : ℝ) : EReal) = ((-wm * (1 / s) : ℝ) : EReal) := by
    rw [EReal.coe_mul, EReal.coe_neg]
  rw [e1, e2, e3, e4, rste_coe, rste_coe]

/-- A clipped parameter is a real in `[-1, 0]`, whatever was clipped. -/
theorem clipU_real (x : EReal) : ∃ r : ℝ, clipU x = (r : EReal) ∧ -1 ≤ r ∧ r ≤ 0 := by
  unfold clipU
  rw [cZero_eq, cNeg1_eq]
  induction x using EReal.rec with
  | bot => exact ⟨-1, by rw [max_eq_left bot_le, ← EReal.coe_zero, coe_min]; congr 1; norm_num, le_refl _, by norm_num⟩
  | top => exact ⟨0, by rw [max_eq_right le_top, min_eq_left le_top]; rfl, by norm_num, le_refl _⟩
  | coe r =>
    refine ⟨min 0 (max (-1) r), by rw [coe_max, ← EReal.coe_zero, coe_min], ?_, min_le_left _ _⟩
    exact le_min (by norm_num) (le_max_left _ _)

/-- The lower end is a nonpositive real when the group's minimum is not `-∞`. -/
theorem loTmp_real {g : EReal} (hg : g ≠ ⊥) {mn : ℝ} (h0 : -1 ≤ mn) :
    ∃ r : ℝ, loTmp g (mn : EReal) = (r : EReal) ∧ r ≤ 0 := by
  unfold loTmp
  rw [cZero_eq, cOne_eq, ← EReal.coe_add]
  induction g using EReal.rec with
  | bot => exact absurd rfl hg
  | top =>
    refine ⟨0 * (mn + 1), ?_, by simp⟩
    rw [min_eq_right le_top, ← EReal.coe_zero, ← EReal.coe_mul]
  | coe r =>
    refine ⟨min r 0 * (mn + 1), ?_, ?_⟩
    · rw [← EReal.coe_zero, coe_min, ← EReal.coe_mul]
    · exact mul_nonpos_iff.mpr (Or.inr ⟨min_le_right _ _, by linarith⟩)

/-- The upper end is a nonnegative real when the group's maximum is not `+∞`. -/
theorem hiTmp_real {g : EReal} (hg : g ≠ ⊤) {mx : ℝ} (h0 : -1 ≤ mx) :
    ∃ r : ℝ, hiTmp g (mx : EReal) = (r : EReal) ∧ 0 ≤ r := by
  unfold hiTmp
  rw [cZero_eq, cOne_eq, ← EReal.coe_add]
  induction g using EReal.rec with
  | top => exact absurd rfl hg
  | bot =>
    refine ⟨0 * (mx + 1), ?_, by simp⟩
    rw [max_eq_right bot_le, ← EReal.coe_zero, ← EReal.coe_mul]
  | coe r =>
    refine ⟨max r 0 * (mx + 1), ?_, ?_⟩
    · rw [← EReal.coe_zero, coe_max, ← EReal.coe_mul]
    · exact mul_nonneg (le_max_right _ _) (by linarith)

/-- From real ends `lo ≤ 0 ≤ hi` the step is a nonzero real and the zero point's numerator a real. -/
theorem scale_facts {lo hi : ℝ} (hlo : lo ≤ 0) (hhi : 0 ≤ hi) :
    ∃ s wm : ℝ, scaleOf (lo : EReal) (hi : EReal) = (s : EReal) ∧ s ≠ 0 ∧ wminOf (lo : EReal) (hi : EReal) = (wm : EReal) := by
  have h15 : (15 : ℝ) ≠ 0 := by norm_num
  unfold scaleOf wmaxOf wminOf Scalar.select
  by_cases hd : degen (lo : EReal) (hi : EReal) = 1
  · rw [if_pos hd, if_pos hd, cOne_eq, cNeg1_eq, c15_eq, Ideal.div_coe h15, ← EReal.coe_sub, ← EReal.coe_mul]
    exact ⟨_, _, rfl, by norm_num, rfl⟩
  · rw [if_neg hd, if_neg hd, c15_eq, Ideal.div_coe h15, coe_max, coe_min, ← EReal.coe_sub, ← EReal.coe_mul]
    refine ⟨_, _, rfl, ?_, rfl⟩
    rw [max_eq_left (hlo.trans hhi), min_eq_right (hlo.trans hhi)]
    intro h
    have hz : hi - lo = 0 := by
      rcases mul_eq_zero.mp h with h | h
      · exact h
      · norm_num at h
    have hl : lo = 0 := by linarith
    have hh : hi = 0 := by linarith
    apply hd
    subst hl; subst hh
    simp [degen, Ideal.cmp, IntOp.andi, cZero_eq]

/-! ## A group's minimum and maximum -/

theorem fold_min_ne_bot {ι : Type} (s : Finset ι) (f : ι → EReal) (b : EReal) (hb : b ≠ ⊥) (hf : ∀ k, f k ≠ ⊥) :
    s.fold min b f ≠ ⊥ := by
  classical
  induction s using Finset.induction_on with
  | empty => simpa using hb
  | insert a s ha ih =>
    rw [Finset.fold_insert ha]
    rcases min_choice (f a) (s.fold min b f) with h | h <;> rw [h]
    · exact hf a
    · exact ih

theorem fold_max_ne_top {ι : Type} (s : Finset ι) (f : ι → EReal) (b : EReal) (hb : b ≠ ⊤) (hf : ∀ k, f k ≠ ⊤) :
    s.fold max b f ≠ ⊤ := by
  classical
  induction s using Finset.induction_on with
  | empty => simpa using hb
  | insert a s ha ih =>
    rw [Finset.fold_insert ha]
    rcases max_choice (f a) (s.fold max b f) with h | h <;> rw [h]
    · exact hf a
    · exact ih

end Cert.QuantSpec

end
-- ==== Proof.Layout.lean ====
/-
  The layout operations of one quantization group read at an index, over the literal shapes of a 1024-row tile:
  a column block of the tile, a column of the transposed scale block, a per-row column `[1024] → [1024, 1]`,
  its broadcast along the lanes, and a row's minimum and maximum over its 128 lanes.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Layout

open Idealize.ShloMosaic Idealize.ShloMosaic.ValueIdx

abbrev T1024x1024 : Shape := ⟨2, ![1024, 1024]⟩
abbrev T1024x128 : Shape := ⟨2, ![1024, 128]⟩
abbrev T1024x8 : Shape := ⟨2, ![1024, 8]⟩
abbrev T8x1024 : Shape := ⟨2, ![8, 1024]⟩
abbrev T1024x1 : Shape := ⟨2, ![1024, 1]⟩
abbrev T1024 : Shape := ⟨1, ![1024]⟩

variable {α : Type}

/-- A block of 128 columns of the tile starting at column `o`, read at `(p, l)`, is the tile at `(p, o + l)`. -/
theorem ld_cols {Val : EltTy → Type} {e : EltTy} (X : T1024x1024.Idx → Val e) (o : Nat) (inb : ∀ a, (![0, o] : Fin 2 → Nat) a + T1024x128.size a ≤ T1024x1024.size a)
    (p : Fin 1024) (l : Fin 128) (k : Fin 1024) (hk : k.val = o + l.val) :
    View.ld X (Rect.unit (s := T1024x1024) ![0, o] T1024x128.size inb) (ix2 p l) = X (ix2 p k) := by
  show X _ = X _
  congr 1
  funext a
  apply Fin.ext
  match a with
  | ⟨0, _⟩ => show 0 + 1 * p.val = p.val; omega
  | ⟨1, _⟩ => show o + 1 * l.val = k.val; omega

/-- The same with the column spelled `o + l`. -/
theorem ld_cols_add {Val : EltTy → Type} {e : EltTy} (X : T1024x1024.Idx → Val e) (o : Nat) (ho : o + 128 ≤ 1024)
    (inb : ∀ a, (![0, o] : Fin 2 → Nat) a + T1024x128.size a ≤ T1024x1024.size a) (p : Fin 1024) (l : Fin 128) :
    View.ld X (Rect.unit (s := T1024x1024) ![0, o] T1024x128.size inb) (ix2 p l)
      = X (ix2 p ⟨o + l.val, by have := l.isLt; omega⟩) :=
  ld_cols X o inb p l _ rfl

/-- A per-row vector viewed as a column reads, at `(p, u)`, the vector at `p`. -/
theorem col_of_vec (x : T1024.Idx → α) (h : T1024.ShapeCasts T1024x1) (p : Fin 1024) (u : Fin 1) :
    shapeCast T1024x1 x h (ix2 p u) = x (ix1 p) :=
  shapeCast_apply x h _ _ (by
    have hu : u.val = 0 := by omega
    rw [Shape.rowMajor_val_two, Shape.rowMajor_val_one]
    show p.val = p.val * 1 + u.val
    rw [hu]; omega)

/-- A column broadcast along the lanes reads, at `(p, l)`, the column at `(p, 0)`. -/
theorem lanes_of_col (v : T1024x1.Idx → α) (h : T1024x1.Broadcasts T1024x128) (p : Fin 1024) (l : Fin 128) :
    broadcastTo T1024x128 v h (ix2 p l) = v (ix2 p (0 : Fin 1)) := by
  refine broadcastTo_apply v h (ix2 p l) (ix2 p (0 : Fin 1)) fun ax => ?_
  match ax with
  | ⟨0, _⟩ => rfl
  | ⟨1, _⟩ => rfl

/-- Column `g` of the transposed scale block, read at `(p, u)`, is the block at `(g, p)`. -/
theorem col_of_transposed (x : T8x1024.Idx → α) (ht : T8x1024.Transposes [1, 0] T1024x8) (o : Nat)
    (hs : T1024x8.Slices ![0, o] T1024x1) (p : Fin 1024) (u : Fin 1) (g : Fin 8) (hg : g.val = o) :
    extractStridedSlice T1024x1 ![0, o] (transpose T1024x8 [1, 0] x ht) hs (ix2 p u) = x (ix2 g p) := by
  rw [slice2_axis1_apply o _ hs p u g (by omega)]
  exact transpose_ix2_apply x ht p g

/-- A row's minimum over its 128 lanes: the fold of `min` from `+∞`'s word. -/
theorem row_min (v : FVec Ideal T1024x128 .f32) (h : T1024x128.Reduces [1] T1024) (hφ : FTy.f32 = FTy.f32 ∨ FTy.f32 = FTy.bf16)
    (hacc : (0x7F800000#32 : BitVec 32) = 0x7F800000#32) (p : Fin 1024) :
    multiReduction .minimumf [1] T1024 v 0x7F800000#32 h hφ hacc (ix1 p)
      = (Finset.univ : Finset (Fin 128)).fold min (Ideal.ofBits .f32 0x7F800000#32) (fun l => v (ix2 p l)) := by
  refine (multiReduction_minimumf_eq_fold v _ h hφ hacc (ix1 p)).trans ?_
  refine (h.fold_filter_drop_single _ _ v (ix1 p)).trans ?_
  show (Finset.univ : Finset (Fin 128)).fold min _ _ = _
  congr 1
  funext l
  show v (h.lift (ix1 p) l) = v (ix2 p l)
  congr 1
  funext a
  match a with
  | ⟨0, _⟩ => rfl
  | ⟨1, _⟩ => rfl

/-- A row's maximum over its 128 lanes: the fold of `max` from `-∞`'s word. -/
theorem row_max (v : FVec Ideal T1024x128 .f32) (h : T1024x128.Reduces [1] T1024) (hφ : FTy.f32 = FTy.f32 ∨ FTy.f32 = FTy.bf16)
    (hacc : (0xFF800000#32 : BitVec 32) = 0xFF800000#32) (p : Fin 1024) :
    multiReduction .maximumf [1] T1024 v 0xFF800000#32 h hφ hacc (ix1 p)
      = (Finset.univ : Finset (Fin 128)).fold max (Ideal.ofBits .f32 0xFF800000#32) (fun l => v (ix2 p l)) := by
  refine (multiReduction_maximumf_eq_fold v _ h hφ hacc (ix1 p)).trans ?_
  refine (h.fold_filter_drop_single _ _ v (ix1 p)).trans ?_
  show (Finset.univ : Finset (Fin 128)).fold max _ _ = _
  congr 1
  funext l
  show v (h.lift (ix1 p) l) = v (ix2 p l)
  congr 1
  funext a
  match a with
  | ⟨0, _⟩ => rfl
  | ⟨1, _⟩ => rfl

end Cert.Layout

end
-- ==== Proof.TileSpec.lean ====
/-
  One 1024 × 1024 weight tile dequantized, entry by entry, from the four blocks a grid point loads: the weight
  block, the rounding-offset block, and the two `[8, 1024]` scale blocks (row `g` of a scale block holds group
  `g`'s parameter for each of the tile's 1024 weight rows). Entry `(p, o + l)` of the tile lies in the group of the
  128 columns from `o`; its ends come from that group's minimum and maximum over the row `p`.
-/
import proofs.«176642_j33122787787467_2_alg».proof.Proof.QuantSpec
import proofs.«176642_j33122787787467_2_alg».proof.Proof.Layout

noncomputable section

namespace Cert.TileSpec

open Idealize.ShloMosaic Idealize.ShloMosaic.ValueIdx Cert.QuantSpec Cert.Layout

/-- Row `p`'s 128 entries from column `o`. -/
def lane (x1 : T1024x1024.Idx → EReal) (p : Fin 1024) (o : Nat) (ho : o + 128 ≤ 1024) (l : Fin 128) : EReal :=
  x1 (ix2 p ⟨o + l.val, by have := l.isLt; omega⟩)

def tileLo (x1 : T1024x1024.Idx → EReal) (x3 : T8x1024.Idx → EReal) (p : Fin 1024) (g : Fin 8) (o : Nat) (ho : o + 128 ≤ 1024) : EReal :=
  loTmp (Finset.univ.fold min cTop (lane x1 p o ho)) (clipU (x3 (ix2 g p)))
def tileHi (x1 : T1024x1024.Idx → EReal) (x4 : T8x1024.Idx → EReal) (p : Fin 1024) (g : Fin 8) (o : Nat) (ho : o + 128 ≤ 1024) : EReal :=
  hiTmp (Finset.univ.fold max cBot (lane x1 p o ho)) (clipU (x4 (ix2 g p)))

/-- The group's step and zero-point numerator. -/
def tileScale (x1 : T1024x1024.Idx → EReal) (x3 x4 : T8x1024.Idx → EReal) (p : Fin 1024) (g : Fin 8) (o : Nat) (ho : o + 128 ≤ 1024) : EReal :=
  scaleOf (tileLo x1 x3 p g o ho) (tileHi x1 x4 p g o ho)
def tileWmin (x1 : T1024x1024.Idx → EReal) (x3 x4 : T8x1024.Idx → EReal) (p : Fin 1024) (g : Fin 8) (o : Nat) (ho : o + 128 ≤ 1024) : EReal :=
  wminOf (tileLo x1 x3 p g o ho) (tileHi x1 x4 p g o ho)

/-- The kernel's dequantized entry `(p, o + l)`. -/
def tileQ (x1 x2 : T1024x1024.Idx → EReal) (x3 x4 : T8x1024.Idx → EReal) (p : Fin 1024) (g : Fin 8) (o : Nat) (ho : o + 128 ≤ 1024)
    (l : Fin 128) : EReal :=
  qKer (tileScale x1 x3 x4 p g o ho) (tileWmin x1 x3 x4 p g o ho) (lane x1 p o ho l) (lane x2 p o ho l)

/-- The same entry from the group's own two `[1024, 128]` column blocks `w`, `v`. -/
def grpQ (w v : T1024x128.Idx → EReal) (x3 x4 : T8x1024.Idx → EReal) (g : Fin 8) (p : Fin 1024) (l : Fin 128) : EReal :=
  qKer
    (scaleOf (loTmp (Finset.univ.fold min cTop (fun l' : Fin 128 => w (ix2 p l'))) (clipU (x3 (ix2 g p))))
      (hiTmp (Finset.univ.fold max cBot (fun l' : Fin 128 => w (ix2 p l'))) (clipU (x4 (ix2 g p)))))
    (wminOf (loTmp (Finset.univ.fold min cTop (fun l' : Fin 128 => w (ix2 p l'))) (clipU (x3 (ix2 g p))))
      (hiTmp (Finset.univ.fold max cBot (fun l' : Fin 128 => w (ix2 p l'))) (clipU (x4 (ix2 g p)))))
    (w (ix2 p l)) (v (ix2 p l))

/-- With column blocks that hold the tile's columns from `o` this is the tile's entry. -/
theorem grpQ_of_lanes (w v : T1024x128.Idx → EReal) (x1 x2 : T1024x1024.Idx → EReal) (x3 x4 : T8x1024.Idx → EReal) (g : Fin 8)
    (o : Nat) (ho : o + 128 ≤ 1024) (p : Fin 1024) (l : Fin 128)
    (hw : ∀ l' : Fin 128, w (ix2 p l') = lane x1 p o ho l') (hv : ∀ l' : Fin 128, v (ix2 p l') = lane x2 p o ho l') :
    grpQ w v x3 x4 g p l = tileQ x1 x2 x3 x4 p g o ho l := by
  unfold grpQ tileQ tileScale tileWmin tileLo tileHi
  simp only [hw, hv]

/-- Entry `(n, k)` of the dequantized tile: group `k / 128`, lane `k % 128`. -/
def tileW (x1 x2 : T1024x1024.Idx → EReal) (x3 x4 : T8x1024.Idx → EReal) (n k : Fin 1024) : EReal :=
  tileQ x1 x2 x3 x4 n ⟨k.val / 128, by have := k.isLt; omega⟩ (128 * (k.val / 128)) (by have := k.isLt; omega)
    ⟨k.val % 128, Nat.mod_lt _ (by norm_num)⟩

theorem tileQ_congr (x1 x2 : T1024x1024.Idx → EReal) (x3 x4 : T8x1024.Idx → EReal) (p : Fin 1024) {g g' : Fin 8} {o o' : Nat}
    (hg : g = g') (hoo : o = o') (ho : o + 128 ≤ 1024) (ho' : o' + 128 ≤ 1024) (l : Fin 128) :
    tileQ x1 x2 x3 x4 p g o ho l = tileQ x1 x2 x3 x4 p g' o' ho' l := by
  subst hg; subst hoo; rfl

end Cert.TileSpec

end
-- ==== Proof.GroupAtA.lean ====
/-
  Groups 0, 1, 2, 3 of the weight tile read at an entry: each group's chain of vector operations — clip and transpose of the
  scale blocks, the row minimum and maximum, the ends, the step, the zero point, the rounded and clamped quotient — is, at
  row `p` and lane `l`, the scalar `TileSpec.grpQ` of the group's two column blocks.
-/
import proofs.«176642_j33122787787467_2_alg».proof.Proof.Pieces
import proofs.«176642_j33122787787467_2_alg».proof.Proof.TileSpec
set_option maxRecDepth 1000000
noncomputable section
open Idealize.ShloMosaic Idealize.ShloMosaic.TcCoe Idealize.SL.Sem Idealize.ShloMosaic.ValueIdx
namespace Cert.KernelIdeal.GroupAtA
open Cert.KernelIdeal Cert.KernelIdeal.Gen Cert.KernelIdeal.Pieces Cert.QuantSpec Cert.Layout Cert.TileSpec

theorem roundeven_apply {s : Shape} {φ : FTy} (a : FVec Ideal s φ) (i : s.Idx) : roundeven a i = rnd (a i) := rfl
theorem andi_apply {s : Shape} {w : Nat} (a b : IVec s w) (i : s.Idx) : andi a b i = IntOp.andi (a i) (b i) := rfl

/-- Group 0 at row `p`, lane `l`. -/
theorem pay_g0 (w v : FVec Ideal S1024x128 .f32) (x3 x4 : FVec Ideal S8x1024 .f32) (p : Fin 1024) (l : Fin 128) :
    k0_pay10 (F := Ideal) w v (k0_pay8 (F := Ideal) x3 x4 w) (k0_pay9 (F := Ideal) x3 x4 w) (ix2 p l) = grpQ w v x3 x4 0 p l := by
  unfold k0_pay10 k0_pay9 k0_pay8 k0_pay7 k0_pay6 k0_pay5 k0_pay4
  simp only [mulf_apply, addf_apply, subf_apply, divf_apply, maximumf_apply, minimumf_apply, truncf_apply, broadcast_apply,
    cmpf_apply, select_apply, roundeven_apply, andi_apply, shapeCast_self, lanes_of_col, col_of_vec, row_min, row_max,
    col_of_transposed _ _ 0 _ _ _ 0 rfl]
  rw [row_min, row_max]
  rfl

/-- Group 1 at row `p`, lane `l`. -/
theorem pay_g1 (w v : FVec Ideal S1024x128 .f32) (x3 x4 : FVec Ideal S8x1024 .f32) (p : Fin 1024) (l : Fin 128) :
    k0_pay15 (F := Ideal) (k0_pay11 (F := Ideal) (k0_pay4 (F := Ideal) x3)) (k0_pay12 (F := Ideal) (k0_pay5 (F := Ideal) x4)) w v (k0_pay13 (F := Ideal) w) (k0_pay14 (F := Ideal) w) (FloatOps.ofBits FTy.f32 1065353216#32) (ix2 p l) = grpQ w v x3 x4 1 p l := by
  unfold k0_pay15 k0_pay14 k0_pay13 k0_pay12 k0_pay11 k0_pay5 k0_pay4
  simp only [mulf_apply, addf_apply, subf_apply, divf_apply, maximumf_apply, minimumf_apply, truncf_apply, broadcast_apply,
    cmpf_apply, select_apply, roundeven_apply, andi_apply, shapeCast_self, lanes_of_col, col_of_vec, row_min, row_max,
    col_of_transposed _ _ 1 _ _ _ 1 rfl]
  rw [row_min, row_max]
  rfl

/-- Group 2 at row `p`, lane `l`. -/
theorem pay_g2 (w v : FVec Ideal S1024x128 .f32) (x3 x4 : FVec Ideal S8x1024 .f32) (p : Fin 1024) (l : Fin 128) :
    k0_pay29 (F := Ideal) (k0_pay24 (F := Ideal) (k0_pay16 (F := Ideal) (k0_pay4 (F := Ideal) x3)) (k0_pay17 (F := Ideal) (k0_pay5 (F := Ideal) x4)) w) (k0_pay26 (F := Ideal) (k0_pay16 (F := Ideal) (k0_pay4 (F := Ideal) x3)) (k0_pay17 (F := Ideal) (k0_pay5 (F := Ideal) x4)) w) (k0_pay27 (F := Ideal) (k0_pay16 (F := Ideal) (k0_pay4 (F := Ideal) x3)) (k0_pay17 (F := Ideal) (k0_pay5 (F := Ideal) x4)) w v) (k0_pay28 (F := Ideal)) (ix2 p l) = grpQ w v x3 x4 2 p l := by
  unfold k0_pay29 k0_pay28 k0_pay27 k0_pay26 k0_pay25 k0_pay24 k0_pay23 k0_pay22 k0_pay21 k0_pay20 k0_pay19 k0_pay18 k0_pay17 k0_pay16 k0_pay5 k0_pay4
  simp only [mulf_apply, addf_apply, subf_apply, divf_apply, maximumf_apply, minimumf_apply, truncf_apply, broadcast_apply,
    cmpf_apply, select_apply, roundeven_apply, andi_apply, shapeCast_self, lanes_of_col, col_of_vec, row_min, row_max,
    col_of_transposed _ _ 2 _ _ _ 2 rfl]
  rw [row_min, row_max]
  rfl

/-- Group 3 at row `p`, lane `l`. -/
theorem pay_g3 (w v : FVec Ideal S1024x128 .f32) (x3 x4 : FVec Ideal S8x1024 .f32) (p : Fin 1024) (l : Fin 128) :
    k0_pay39 (F := Ideal) w v (k0_pay36 (F := Ideal) (k0_pay4 (F := Ideal) x3) (k0_pay5 (F := Ideal) x4) w) (k0_pay37 (F := Ideal) (k0_pay4 (F := Ideal) x3) (k0_pay5 (F := Ideal) x4) w) (k0_pay38 (F := Ideal) (k0_pay4 (F := Ideal) x3) (k0_pay5 (F := Ideal) x4) w) (ix2 p l) = grpQ w v x3 x4 3 p l := by
  unfold k0_pay39 k0_pay38 k0_pay37 k0_pay36 k0_pay35 k0_pay34 k0_pay33 k0_pay32 k0_pay31 k0_pay30 k0_pay5 k0_pay4
  simp only [mulf_apply, addf_apply, subf_apply, divf_apply, maximumf_apply, minimumf_apply, truncf_apply, broadcast_apply,
    cmpf_apply, select_apply, roundeven_apply, andi_apply, shapeCast_self, lanes_of_col, col_of_vec, row_min, row_max,
    col_of_transposed _ _ 3 _ _ _ 3 rfl]
  rw [row_min, row_max]
  rfl

end Cert.KernelIdeal.GroupAtA
end
-- ==== Proof.GroupAtB.lean ====
/-
  Groups 4, 5, 6, 7 of the weight tile read at an entry: each group's chain of vector operations — clip and transpose of the
  scale blocks, the row minimum and maximum, the ends, the step, the zero point, the rounded and clamped quotient — is, at
  row `p` and lane `l`, the scalar `TileSpec.grpQ` of the group's two column blocks.
-/
import proofs.«176642_j33122787787467_2_alg».proof.Proof.Pieces
import proofs.«176642_j33122787787467_2_alg».proof.Proof.TileSpec
set_option maxRecDepth 1000000
noncomputable section
open Idealize.ShloMosaic Idealize.ShloMosaic.TcCoe Idealize.SL.Sem Idealize.ShloMosaic.ValueIdx
namespace Cert.KernelIdeal.GroupAtB
open Cert.KernelIdeal Cert.KernelIdeal.Gen Cert.KernelIdeal.Pieces Cert.QuantSpec Cert.Layout Cert.TileSpec

theorem roundeven_apply {s : Shape} {φ : FTy} (a : FVec Ideal s φ) (i : s.Idx) : roundeven a i = rnd (a i) := rfl
theorem andi_apply {s : Shape} {w : Nat} (a b : IVec s w) (i : s.Idx) : andi a b i = IntOp.andi (a i) (b i) := rfl

/-- Group 4 at row `p`, lane `l`. -/
theorem pay_g4 (w v : FVec Ideal S1024x128 .f32) (x3 x4 : FVec Ideal S8x1024 .f32) (p : Fin 1024) (l : Fin 128) :
    k0_pay47 (F := Ideal) w v (k0_pay42 (F := Ideal) (k0_pay4 (F := Ideal) x3) (k0_pay5 (F := Ideal) x4) w) (k0_pay44 (F := Ideal) (k0_pay4 (F := Ideal) x3) (k0_pay5 (F := Ideal) x4) w) (k0_pay45 (F := Ideal) (k0_pay4 (F := Ideal) x3) (k0_pay5 (F := Ideal) x4) w) (k0_pay46 (F := Ideal)) (ix2 p l) = grpQ w v x3 x4 4 p l := by
  unfold k0_pay47 k0_pay46 k0_pay45 k0_pay44 k0_pay43 k0_pay42 k0_pay41 k0_pay40 k0_pay5 k0_pay4
  simp only [mulf_apply, addf_apply, subf_apply, divf_apply, maximumf_apply, minimumf_apply, truncf_apply, broadcast_apply,
    cmpf_apply, select_apply, roundeven_apply, andi_apply, shapeCast_self, lanes_of_col, col_of_vec, row_min, row_max,
    col_of_transposed _ _ 4 _ _ _ 4 rfl]
  rw [row_min, row_max]
  rfl

/-- Group 5 at row `p`, lane `l`. -/
theorem pay_g5 (w v : FVec Ideal S1024x128 .f32) (x3 x4 : FVec Ideal S8x1024 .f32) (p : Fin 1024) (l : Fin 128) :
    k0_pay52 (F := Ideal) w v (k0_pay50 (F := Ideal) (k0_pay4 (F := Ideal) x3) (k0_pay5 (F := Ideal) x4) w) (k0_pay51 (F := Ideal) (k0_pay4 (F := Ideal) x3) (k0_pay5 (F := Ideal) x4) w) (ix2 p l) = grpQ w v x3 x4 5 p l := by
  unfold k0_pay52 k0_pay51 k0_pay50 k0_pay49 k0_pay48 k0_pay5 k0_pay4
  simp only [mulf_apply, addf_apply, subf_apply, divf_apply, maximumf_apply, minimumf_apply, truncf_apply, broadcast_apply,
    cmpf_apply, select_apply, roundeven_apply, andi_apply, shapeCast_self, lanes_of_col, col_of_vec, row_min, row_max,
    col_of_transposed _ _ 5 _ _ _ 5 rfl]
  rw [row_min, row_max]
  rfl

/-- Group 6 at row `p`, lane `l`. -/
theorem pay_g6 (w v : FVec Ideal S1024x128 .f32) (x3 x4 : FVec Ideal S8x1024 .f32) (p : Fin 1024) (l : Fin 128) :
    k0_pay57 (F := Ideal) (k0_pay53 (F := Ideal) (k0_pay4 (F := Ideal) x3)) (k0_pay54 (F := Ideal) (k0_pay5 (F := Ideal) x4)) w v (k0_pay55 (F := Ideal) w) (k0_pay56 (F := Ideal) w) (FloatOps.ofBits FTy.f32 1065353216#32) (ix2 p l) = grpQ w v x3 x4 6 p l := by
  unfold k0_pay57 k0_pay56 k0_pay55 k0_pay54 k0_pay53 k0_pay5 k0_pay4
  simp only [mulf_apply, addf_apply, subf_apply, divf_apply, maximumf_apply, minimumf_apply, truncf_apply, broadcast_apply,
    cmpf_apply, select_apply, roundeven_apply, andi_apply, shapeCast_self, lanes_of_col, col_of_vec, row_min, row_max,
    col_of_transposed _ _ 6 _ _ _ 6 rfl]
  rw [row_min, row_max]
  rfl

/-- Group 7 at row `p`, lane `l`. -/
theorem pay_g7 (w v : FVec Ideal S1024x128 .f32) (x3 x4 : FVec Ideal S8x1024 .f32) (p : Fin 1024) (l : Fin 128) :
    (truncf .bf16 (mulf (broadcastTo S1024x128 (k0_pay66 (F := Ideal) (k0_pay58 (F := Ideal) (k0_pay4 (F := Ideal) x3)) (k0_pay59 (F := Ideal) (k0_pay5 (F := Ideal) x4)) w) broadcasts_S1024x1_S1024x128) (subf (minimumf (k0_pay70 (F := Ideal)) (k0_pay69 (F := Ideal) (k0_pay58 (F := Ideal) (k0_pay4 (F := Ideal) x3)) (k0_pay59 (F := Ideal) (k0_pay5 (F := Ideal) x4)) w v)) (broadcastTo S1024x128 (k0_pay68 (F := Ideal) (k0_pay58 (F := Ideal) (k0_pay4 (F := Ideal) x3)) (k0_pay59 (F := Ideal) (k0_pay5 (F := Ideal) x4)) w) broadcasts_S1024x1_S1024x128))) bitsLt_bf16_f32 : FVec Ideal S1024x128 .bf16) (ix2 p l) = grpQ w v x3 x4 7 p l := by
  unfold k0_pay70 k0_pay69 k0_pay68 k0_pay67 k0_pay66 k0_pay65 k0_pay64 k0_pay63 k0_pay62 k0_pay61 k0_pay60 k0_pay59 k0_pay58 k0_pay5 k0_pay4
  simp only [mulf_apply, addf_apply, subf_apply, divf_apply, maximumf_apply, minimumf_apply, truncf_apply, broadcast_apply,
    cmpf_apply, select_apply, roundeven_apply, andi_apply, shapeCast_self, lanes_of_col, col_of_vec, row_min, row_max,
    col_of_transposed _ _ 7 _ _ _ 7 rfl]
  rw [row_min, row_max]
  rfl

end Cert.KernelIdeal.GroupAtB
end
-- ==== Proof.StepAt.lean ====
/-
  One grid point's step read at an entry: the accumulator plus the sum over the tile's 1024 columns of the activation
  entry times the dequantized weight. The dequantized tile is the concatenation of its eight groups along the
  columns; column `k` lies in group `k / 128` at lane `k % 128`. The matrix product contracts the columns of both
  operands.
-/
import proofs.«176642_j33122787787467_2_alg».proof.Proof.GroupAtA
import proofs.«176642_j33122787787467_2_alg».proof.Proof.GroupAtB
import Idealize.ShloMosaic.PureOps.Ideal.Laws
set_option maxRecDepth 1000000
noncomputable section
open Idealize.ShloMosaic Idealize.ShloMosaic.TcCoe Idealize.SL.Sem Idealize.ShloMosaic.ValueIdx
namespace Cert.KernelIdeal.StepAt
open Cert.KernelIdeal Cert.KernelIdeal.Gen Cert.KernelIdeal.Pieces Cert.QuantSpec Cert.Layout Cert.TileSpec
open Cert.KernelIdeal.GroupAtA Cert.KernelIdeal.GroupAtB

/-- The last group, which the body spells inline. -/
def grp7 {F : FTy → Type} [FloatOps F] (x1 x2 : Vec F S1024x1024 .f32) (x3 x4 : Vec F S8x1024 .f32) : FVec F S1024x128 .bf16 :=
  truncf .bf16 (mulf (broadcastTo S1024x128 (scale7 x1 x3 x4) broadcasts_S1024x1_S1024x128)
    (subf (minimumf k0_pay70 (low7 x1 x2 x3 x4)) (broadcastTo S1024x128 (zp7 x1 x3 x4) broadcasts_S1024x1_S1024x128))) bitsLt_bf16_f32

theorem grp0_at (x1 x2 : Vec Ideal S1024x1024 .f32) (x3 x4 : Vec Ideal S8x1024 .f32) (p : Fin 1024) (l : Fin 128) :
    grp0 x1 x2 x3 x4 (ix2 p l) = tileQ x1 x2 x3 x4 p 0 0 (by norm_num) l := by
  unfold grp0
  refine (pay_g0 _ _ x3 x4 p l).trans ?_
  exact grpQ_of_lanes _ _ x1 x2 x3 x4 0 0 (by norm_num) p l (fun l' => ld_cols_add x1 0 (by norm_num) _ p l')
    (fun l' => ld_cols_add x2 0 (by norm_num) _ p l')

theorem grp1_at (x1 x2 : Vec Ideal S1024x1024 .f32) (x3 x4 : Vec Ideal S8x1024 .f32) (p : Fin 1024) (l : Fin 128) :
    grp1 x1 x2 x3 x4 (ix2 p l) = tileQ x1 x2 x3 x4 p 1 128 (by norm_num) l := by
  unfold grp1
  refine (pay_g1 _ _ x3 x4 p l).trans ?_
  exact grpQ_of_lanes _ _ x1 x2 x3 x4 1 128 (by norm_num) p l (fun l' => ld_cols_add x1 128 (by norm_num) _ p l')
    (fun l' => ld_cols_add x2 128 (by norm_num) _ p l')

theorem grp2_at (x1 x2 : Vec Ideal S1024x1024 .f32) (x3 x4 : Vec Ideal S8x1024 .f32) (p : Fin 1024) (l : Fin 128) :
    grp2 x1 x2 x3 x4 (ix2 p l) = tileQ x1 x2 x3 x4 p 2 256 (by norm_num) l := by
  unfold grp2
  refine (pay_g2 _ _ x3 x4 p l).trans ?_
  exact grpQ_of_lanes _ _ x1 x2 x3 x4 2 256 (by norm_num) p l (fun l' => ld_cols_add x1 256 (by norm_num) _ p l')
    (fun l' => ld_cols_add x2 256 (by norm_num) _ p l')

theorem grp3_at (x1 x2 : Vec Ideal S1024x1024 .f32) (x3 x4 : Vec Ideal S8x1024 .f32) (p : Fin 1024) (l : Fin 128) :
    grp3 x1 x2 x3 x4 (ix2 p l) = tileQ x1 x2 x3 x4 p 3 384 (by norm_num) l := by
  unfold grp3
  refine (pay_g3 _ _ x3 x4 p l).trans ?_
  exact grpQ_of_lanes _ _ x1 x2 x3 x4 3 384 (by norm_num) p l (fun l' => ld_cols_add x1 384 (by norm_num) _ p l')
    (fun l' => ld_cols_add x2 384 (by norm_num) _ p l')

theorem grp4_at (x1 x2 : Vec Ideal S1024x1024 .f32) (x3 x4 : Vec Ideal S8x1024 .f32) (p : Fin 1024) (l : Fin 128) :
    grp4 x1 x2 x3 x4 (ix2 p l) = tileQ x1 x2 x3 x4 p 4 512 (by norm_num) l := by
  unfold grp4
  refine (pay_g4 _ _ x3 x4 p l).trans ?_
  exact grpQ_of_lanes _ _ x1 x2 x3 x4 4 512 (by norm_num) p l (fun l' => ld_cols_add x1 512 (by norm_num) _ p l')
    (fun l' => ld_cols_add x2 512 (by norm_num) _ p l')

theorem grp5_at (x1 x2 : Vec Ideal S1024x1024 .f32) (x3 x4 : Vec Ideal S8x1024 .f32) (p : Fin 1024) (l : Fin 128) :
    grp5 x1 x2 x3 x4 (ix2 p l) = tileQ x1 x2 x3 x4 p 5 640 (by norm_num) l := by
  unfold grp5
  refine (pay_g5 _ _ x3 x4 p l).trans ?_
  exact grpQ_of_lanes _ _ x1 x2 x3 x4 5 640 (by norm_num) p l (fun l' => ld_cols_add x1 640 (by norm_num) _ p l')
    (fun l' => ld_cols_add x2 640 (by norm_num) _ p l')

theorem grp6_at (x1 x2 : Vec Ideal S1024x1024 .f32) (x3 x4 : Vec Ideal S8x1024 .f32) (p : Fin 1024) (l : Fin 128) :
    grp6 x1 x2 x3 x4 (ix2 p l) = tileQ x1 x2 x3 x4 p 6 768 (by norm_num) l := by
  unfold grp6
  refine (pay_g6 _ _ x3 x4 p l).trans ?_
  exact grpQ_of_lanes _ _ x1 x2 x3 x4 6 768 (by norm_num) p l (fun l' => ld_cols_add x1 768 (by norm_num) _ p l')
    (fun l' => ld_cols_add x2 768 (by norm_num) _ p l')

theorem grp7_at (x1 x2 : Vec Ideal S1024x1024 .f32) (x3 x4 : Vec Ideal S8x1024 .f32) (p : Fin 1024) (l : Fin 128) :
    grp7 x1 x2 x3 x4 (ix2 p l) = tileQ x1 x2 x3 x4 p 7 896 (by norm_num) l := by
  unfold grp7 scale7 zp7 low7
  refine (pay_g7 _ _ x3 x4 p l).trans ?_
  exact grpQ_of_lanes _ _ x1 x2 x3 x4 7 896 (by norm_num) p l (fun l' => ld_cols_add x1 896 (by norm_num) _ p l')
    (fun l' => ld_cols_add x2 896 (by norm_num) _ p l')

/-- The dequantized tile: the eight groups side by side. -/
def wqList {F : FTy → Type} [FloatOps F] (x1 x2 : Vec F S1024x1024 .f32) (x3 x4 : Vec F S8x1024 .f32) :
    List ((s : Shape) × (s.Idx → F .bf16)) :=
  [⟨S1024x128, grp0 x1 x2 x3 x4⟩, ⟨S1024x128, grp1 x1 x2 x3 x4⟩, ⟨S1024x128, grp2 x1 x2 x3 x4⟩,
    ⟨S1024x128, grp3 x1 x2 x3 x4⟩, ⟨S1024x128, grp4 x1 x2 x3 x4⟩, ⟨S1024x128, grp5 x1 x2 x3 x4⟩, ⟨S1024x128, grp6 x1 x2 x3 x4⟩,
    ⟨S1024x128, grp7 x1 x2 x3 x4⟩]
def wq {F : FTy → Type} [FloatOps F] (x1 x2 : Vec F S1024x1024 .f32) (x3 x4 : Vec F S8x1024 .f32) : FVec F S1024x1024 .bf16 :=
  concatenate S1024x1024 1 (wqList x1 x2 x3 x4) concatenates_S1024x128_S1024x128_S1024x128_S1024x128_S1024x128_S1024x128_S1024x128_S1024x128_S1024x1024_d1

/-- Entry `(n, k)` of the dequantized tile. -/
theorem wq_at (x1 x2 : Vec Ideal S1024x1024 .f32) (x3 x4 : Vec Ideal S8x1024 .f32) (n k : Fin 1024) :
    wq x1 x2 x3 x4 (ix2 n k) = tileW x1 x2 x3 x4 n k := by
  have hk := k.isLt
  unfold wq tileW
  rcases (show k.val / 128 = 0 ∨ k.val / 128 = 1 ∨ k.val / 128 = 2 ∨ k.val / 128 = 3 ∨ k.val / 128 = 4 ∨ k.val / 128 = 5
      ∨ k.val / 128 = 6 ∨ k.val / 128 = 7 by omega) with h | h | h | h | h | h | h | h
  · refine (concatenate_apply_piece (t := S1024x1024) (1 : Fin 2) (wqList x1 x2 x3 x4) concatenates_S1024x128_S1024x128_S1024x128_S1024x128_S1024x128_S1024x128_S1024x128_S1024x128_S1024x1024_d1 (ix2 n k) 0 (by simp [wqList]) S1024x128 (grp0 x1 x2 x3 x4) rfl rfl 0 (by rfl)
      (ix2 n (⟨k.val % 128, Nat.mod_lt _ (by norm_num)⟩ : Fin 128)) (fun b hb => by
        match b with
        | ⟨0, _⟩ => rfl
        | ⟨1, _⟩ => exact absurd rfl hb) (by show 0 + k.val % 128 = k.val; omega)).trans ?_
    rw [grp0_at]
    exact tileQ_congr x1 x2 x3 x4 n (Fin.ext (by show 0 = k.val / 128; omega)) (by omega) _ _ _
  · refine (concatenate_apply_piece (t := S1024x1024) (1 : Fin 2) (wqList x1 x2 x3 x4) concatenates_S1024x128_S1024x128_S1024x128_S1024x128_S1024x128_S1024x128_S1024x128_S1024x128_S1024x1024_d1 (ix2 n k) 1 (by simp [wqList]) S1024x128 (grp1 x1 x2 x3 x4) rfl rfl 128 (by rfl)
      (ix2 n (⟨k.val % 128, Nat.mod_lt _ (by norm_num)⟩ : Fin 128)) (fun b hb => by
        match b with
        | ⟨0, _⟩ => rfl
        | ⟨1, _⟩ => exact absurd rfl hb) (by show 128 + k.val % 128 = k.val; omega)).trans ?_
    rw [grp1_at]
    exact tileQ_congr x1 x2 x3 x4 n (Fin.ext (by show 1 = k.val / 128; omega)) (by omega) _ _ _
  · refine (concatenate_apply_piece (t := S1024x1024) (1 : Fin 2) (wqList x1 x2 x3 x4) concatenates_S1024x128_S1024x128_S1024x128_S1024x128_S1024x128_S1024x128_S1024x128_S1024x128_S1024x1024_d1 (ix2 n k) 2 (by simp [wqList]) S1024x128 (grp2 x1 x2 x3 x4) rfl rfl 256 (by rfl)
      (ix2 n (⟨k.val % 128, Nat.mod_lt _ (by norm_num)⟩ : Fin 128)) (fun b hb => by
        match b with
        | ⟨0, _⟩ => rfl
        | ⟨1, _⟩ => exact absurd rfl hb) (by show 256 + k.val % 128 = k.val; omega)).trans ?_
    rw [grp2_at]
    exact tileQ_congr x1 x2 x3 x4 n (Fin.ext (by show 2 = k.val / 128; omega)) (by omega) _ _ _
  · refine (concatenate_apply_piece (t := S1024x1024) (1 : Fin 2) (wqList x1 x2 x3 x4) concatenates_S1024x128_S1024x128_S1024x128_S1024x128_S1024x128_S1024x128_S1024x128_S1024x128_S1024x1024_d1 (ix2 n k) 3 (by simp [wqList]) S1024x128 (grp3 x1 x2 x3 x4) rfl rfl 384 (by rfl)
      (ix2 n (⟨k.val % 128, Nat.mod_lt _ (by norm_num)⟩ : Fin 128)) (fun b hb => by
        match b with
        | ⟨0, _⟩ => rfl
        | ⟨1, _⟩ => exact absurd rfl hb) (by show 384 + k.val % 128 = k.val; omega)).trans ?_
    rw [grp3_at]
    exact tileQ_congr x1 x2 x3 x4 n (Fin.ext (by show 3 = k.val / 128; omega)) (by omega) _ _ _
  · refine (concatenate_apply_piece (t := S1024x1024) (1 : Fin 2) (wqList x1 x2 x3 x4) concatenates_S1024x128_S1024x128_S1024x128_S1024x128_S1024x128_S1024x128_S1024x128_S1024x128_S1024x1024_d1 (ix2 n k) 4 (by simp [wqList]) S1024x128 (grp4 x1 x2 x3 x4) rfl rfl 512 (by rfl)
      (ix2 n (⟨k.val % 128, Nat.mod_lt _ (by norm_num)⟩ : Fin 128)) (fun b hb => by
        match b with
        | ⟨0, _⟩ => rfl
        | ⟨1, _⟩ => exact absurd rfl hb) (by show 512 + k.val % 128 = k.val; omega)).trans ?_
    rw [grp4_at]
    exact tileQ_congr x1 x2 x3 x4 n (Fin.ext (by show 4 = k.val / 128; omega)) (by omega) _ _ _
  · refine (concatenate_apply_piece (t := S1024x1024) (1 : Fin 2) (wqList x1 x2 x3 x4) concatenates_S1024x128_S1024x128_S1024x128_S1024x128_S1024x128_S1024x128_S1024x128_S1024x128_S1024x1024_d1 (ix2 n k) 5 (by simp [wqList]) S1024x128 (grp5 x1 x2 x3 x4) rfl rfl 640 (by rfl)
      (ix2 n (⟨k.val % 128, Nat.mod_lt _ (by norm_num)⟩ : Fin 128)) (fun b hb => by
        match b with
        | ⟨0, _⟩ => rfl
        | ⟨1, _⟩ => exact absurd rfl hb) (by show 640 + k.val % 128 = k.val; omega)).trans ?_
    rw [grp5_at]
    exact tileQ_congr x1 x2 x3 x4 n (Fin.ext (by show 5 = k.val / 128; omega)) (by omega) _ _ _
  · refine (concatenate_apply_piece (t := S1024x1024) (1 : Fin 2) (wqList x1 x2 x3 x4) concatenates_S1024x128_S1024x128_S1024x128_S1024x128_S1024x128_S1024x128_S1024x128_S1024x128_S1024x1024_d1 (ix2 n k) 6 (by simp [wqList]) S1024x128 (grp6 x1 x2 x3 x4) rfl rfl 768 (by rfl)
      (ix2 n (⟨k.val % 128, Nat.mod_lt _ (by norm_num)⟩ : Fin 128)) (fun b hb => by
        match b with
        | ⟨0, _⟩ => rfl
        | ⟨1, _⟩ => exact absurd rfl hb) (by show 768 + k.val % 128 = k.val; omega)).trans ?_
    rw [grp6_at]
    exact tileQ_congr x1 x2 x3 x4 n (Fin.ext (by show 6 = k.val / 128; omega)) (by omega) _ _ _
  · refine (concatenate_apply_piece (t := S1024x1024) (1 : Fin 2) (wqList x1 x2 x3 x4) concatenates_S1024x128_S1024x128_S1024x128_S1024x128_S1024x128_S1024x128_S1024x128_S1024x128_S1024x1024_d1 (ix2 n k) 7 (by simp [wqList]) S1024x128 (grp7 x1 x2 x3 x4) rfl rfl 896 (by rfl)
      (ix2 n (⟨k.val % 128, Nat.mod_lt _ (by norm_num)⟩ : Fin 128)) (fun b hb => by
        match b with
        | ⟨0, _⟩ => rfl
        | ⟨1, _⟩ => exact absurd rfl hb) (by show 896 + k.val % 128 = k.val; omega)).trans ?_
    rw [grp7_at]
    exact tileQ_congr x1 x2 x3 x4 n (Fin.ext (by show 7 = k.val / 128; omega)) (by omega) _ _ _

abbrev DK := dot_S32x1024_S1024x1024_S32x1024_1_1_0_0_n_n

/-- The tile's matrix product at an entry: the sum over the shared 1024 columns. -/
theorem matmul_at (lhs : FVec Ideal S32x1024 .bf16) (rhs : FVec Ideal S1024x1024 .bf16) (i : Fin 32) (n : Fin 1024) :
    matmul DK none lhs rhs (constant S32x1024 .f32 0x00000000#32) (ix2 i n) = ∑ k : Fin 1024, lhs (ix2 i k) * rhs (ix2 n k) := by
  refine (Ideal.matmul_constant_zero_apply DK none lhs rhs (ix2 i n)).trans ?_
  rw [← Equiv.sum_comp (ValueIdx.contrEquiv1 DK 1024 rfl rfl).symm]
  refine Finset.sum_congr rfl fun k _ => ?_
  have hk := ValueIdx.contrEquiv1_symm_val DK 1024 rfl rfl k
  have el : DK.lhsIdx (ix2 i n) ((ValueIdx.contrEquiv1 DK 1024 rfl rfl).symm k) = ix2 i k := funext fun a => Fin.ext (by
    match a with
    | ⟨0, _⟩ =>
      show (DK.lhsIdx (ix2 i n) _ 0).val = i.val
      unfold DotDims.lhsIdx
      rw [dif_neg (show ¬(0 : Fin S32x1024.rank) ∈ DK.lhsBatch by decide), dif_pos (show (0 : Fin S32x1024.rank) ∈ DK.lhsNonContracting by decide)]
      rfl
    | ⟨1, _⟩ => exact (DK.lhsIdx_val_of_single rfl _ _).trans hk)
  have er : DK.rhsIdx (ix2 i n) ((ValueIdx.contrEquiv1 DK 1024 rfl rfl).symm k) = ix2 n k := funext fun a => Fin.ext (by
    match a with
    | ⟨0, _⟩ =>
      show (DK.rhsIdx (ix2 i n) _ 0).val = n.val
      unfold DotDims.rhsIdx
      rw [dif_neg (show ¬(0 : Fin S1024x1024.rank) ∈ DK.rhsBatch by decide), dif_pos (show (0 : Fin S1024x1024.rank) ∈ DK.rhsNonContracting by decide)]
      rfl
    | ⟨1, _⟩ => exact (DK.rhsIdx_val_of_single rfl _ _).trans hk)
  rw [el, er]

/-- The step as one expression: accumulator plus product. -/
theorem stepK_eq {F : FTy → Type} [FloatOps F] (x0 : Vec F S32x1024 .f32) (x1 x2 : Vec F S1024x1024 .f32) (x3 x4 : Vec F S8x1024 .f32)
    (acc : Vec F S32x1024 .f32) :
    stepK x0 x1 x2 x3 x4 acc
      = addf acc (matmul DK none (truncf .bf16 x0 bitsLt_bf16_f32) (wq x1 x2 x3 x4) (constant S32x1024 .f32 0x00000000#32)) := by
  unfold stepK k0_pay1 wq wqList grp7
  simp only [shapeCast_self]

/-- The step at entry `(i, n)`. -/
theorem stepK_at (x0 : Vec Ideal S32x1024 .f32) (x1 x2 : Vec Ideal S1024x1024 .f32) (x3 x4 : Vec Ideal S8x1024 .f32)
    (acc : Vec Ideal S32x1024 .f32) (i : Fin 32) (n : Fin 1024) :
    stepK x0 x1 x2 x3 x4 acc (ix2 i n) = acc (ix2 i n) + ∑ k : Fin 1024, x0 (ix2 i k) * tileW x1 x2 x3 x4 n k := by
  rw [stepK_eq]
  show acc (ix2 i n) + matmul (F := Ideal) DK none _ _ _ (ix2 i n) = _
  rw [matmul_at]
  congr 1
  refine Finset.sum_congr rfl fun k _ => ?_
  rw [wq_at]
  rfl

/-- The zero block the accumulator starts from. -/
theorem zero_at (i : Fin 32) (n : Fin 1024) : k0_pay3 (F := Ideal) (ix2 i n) = cZero := by
  unfold k0_pay3
  simp only [shapeCast_self]
  rfl

/-- The output block: the accumulator plus the bias row. -/
theorem out_at (acc : Vec Ideal S32x1024 .f32) (x5 : Vec Ideal S1x1024 .f32) (i : Fin 32) (n : Fin 1024) :
    k0_pay2 acc x5 (ix2 i n) = acc (ix2 i n) + x5 (ix2 (0 : Fin 1) n) := by
  unfold k0_pay2
  simp only [shapeCast_self]
  show acc (ix2 i n) + broadcastTo S32x1024 x5 broadcasts_S1x1024_S32x1024 (ix2 i n) = _
  rw [broadcastTo_1b_ab_apply]

end Cert.KernelIdeal.StepAt
end
-- ==== Proof.GlobalSpec.lean ====
/-
  The whole result, entry by entry, as each program computes it from the six argument arrays, and why the two agree.

  Weight row `n` is cut into 32 groups of 128 consecutive entries; group `G` of row `n` is row `32 n + G` of the
  `[131072, 128]` view of the weights, and takes the scale parameters at position `32 n + G`. Entry `(i, n)` of the
  result is `Σ_k x[i, k] · q[n, k] + bias[n]` with `q` the dequantized weights. The kernel sums the 4096 products
  in four runs of 1024 starting from zero; the reference in one run. Addition of extended reals is associative and
  commutative, so the arrangement of the sum does not matter; the dequantized weights agree entry by entry when the
  weights and rounding offsets are real numbers (`QuantSpec.qKer_eq_qRef`).
-/
import proofs.«176642_j33122787787467_2_alg».proof.Proof.QuantSpec

noncomputable section

namespace Cert.GlobalSpec

open Idealize.ShloMosaic Idealize.ShloMosaic.ValueIdx Cert.QuantSpec

abbrev A32x4096 : Shape := ⟨2, ![32, 4096]⟩
abbrev A4096x4096 : Shape := ⟨2, ![4096, 4096]⟩
abbrev A4096 : Shape := ⟨1, ![4096]⟩
abbrev A131072 : Shape := ⟨1, ![131072]⟩

/-- The group of entry `(n, k)`. -/
def rowOf (n k : Fin 4096) : Fin 131072 := ⟨32 * n.val + k.val / 128, by have := n.isLt; have := k.isLt; omega⟩

/-- Group `r`'s 128 weights. -/
def gLane (W : A4096x4096.Idx → EReal) (r : Fin 131072) (l : Fin 128) : EReal :=
  W (ix2 (⟨r.val / 32, by have := r.isLt; omega⟩ : Fin 4096) (⟨128 * (r.val % 32) + l.val, by have := l.isLt; omega⟩ : Fin 4096))

def gLo (W : A4096x4096.Idx → EReal) (MN : A131072.Idx → EReal) (r : Fin 131072) : EReal :=
  loTmp (Finset.univ.fold min cTop (gLane W r)) (clipU (MN (ix1 r)))
def gHi (W : A4096x4096.Idx → EReal) (MX : A131072.Idx → EReal) (r : Fin 131072) : EReal :=
  hiTmp (Finset.univ.fold max cBot (gLane W r)) (clipU (MX (ix1 r)))
def gScale (W : A4096x4096.Idx → EReal) (MN MX : A131072.Idx → EReal) (r : Fin 131072) : EReal :=
  scaleOf (gLo W MN r) (gHi W MX r)
def gWmin (W : A4096x4096.Idx → EReal) (MN MX : A131072.Idx → EReal) (r : Fin 131072) : EReal :=
  wminOf (gLo W MN r) (gHi W MX r)

/-- The dequantized weight `(n, k)` as the kernel computes it, and as the reference does. -/
def QK (W V : A4096x4096.Idx → EReal) (MN MX : A131072.Idx → EReal) (n k : Fin 4096) : EReal :=
  qKer (gScale W MN MX (rowOf n k)) (gWmin W MN MX (rowOf n k)) (W (ix2 n k)) (V (ix2 n k))
def QR (W V : A4096x4096.Idx → EReal) (MN MX : A131072.Idx → EReal) (n k : Fin 4096) : EReal :=
  qRef (gScale W MN MX (rowOf n k)) (gWmin W MN MX (rowOf n k)) (W (ix2 n k)) (V (ix2 n k))

/-- Column `kk` of the `s`-th run of 1024. -/
def col (s : Fin 4) (kk : Fin 1024) : Fin 4096 := ⟨1024 * s.val + kk.val, by have := s.isLt; have := kk.isLt; omega⟩

/-- The kernel's result entry: zero, plus four runs of 1024 products, plus the bias. -/
def GKat (X : A32x4096.Idx → EReal) (W : A4096x4096.Idx → EReal) (B : A4096.Idx → EReal) (V : A4096x4096.Idx → EReal)
    (MN MX : A131072.Idx → EReal) (i : Fin 32) (n : Fin 4096) : EReal :=
  (cZero + ∑ s : Fin 4, ∑ kk : Fin 1024, X (ix2 i (col s kk)) * QK W V MN MX n (col s kk)) + B (ix1 n)
/-- The reference's: one run of 4096 products, plus the bias. -/
def GRat (X : A32x4096.Idx → EReal) (W : A4096x4096.Idx → EReal) (B : A4096.Idx → EReal) (V : A4096x4096.Idx → EReal)
    (MN MX : A131072.Idx → EReal) (i : Fin 32) (n : Fin 4096) : EReal :=
  (∑ k : Fin 4096, X (ix2 i k) * QR W V MN MX n k) + B (ix1 n)

def GK (X : A32x4096.Idx → EReal) (W : A4096x4096.Idx → EReal) (B : A4096.Idx → EReal) (V : A4096x4096.Idx → EReal)
    (MN MX : A131072.Idx → EReal) : A32x4096.Idx → EReal := fun j => GKat X W B V MN MX (j 0) (j 1)
def GR (X : A32x4096.Idx → EReal) (W : A4096x4096.Idx → EReal) (B : A4096.Idx → EReal) (V : A4096x4096.Idx → EReal)
    (MN MX : A131072.Idx → EReal) : A32x4096.Idx → EReal := fun j => GRat X W B V MN MX (j 0) (j 1)

/-- Four runs of 1024 columns are the 4096 columns. -/
def colEquiv : Fin 4 × Fin 1024 ≃ Fin 4096 where
  toFun x := col x.1 x.2
  invFun k := (⟨k.val / 1024, by have := k.isLt; omega⟩, ⟨k.val % 1024, Nat.mod_lt _ (by norm_num)⟩)
  left_inv x := by
    obtain ⟨s, kk⟩ := x
    have := kk.isLt
    apply Prod.ext <;> apply Fin.ext <;> simp only [col] <;> omega
  right_inv k := by
    apply Fin.ext
    simp only [col]
    omega

theorem sum_cols {M : Type} [AddCommMonoid M] (f : Fin 4096 → M) :
    ∑ s : Fin 4, ∑ kk : Fin 1024, f (col s kk) = ∑ k : Fin 4096, f k := by
  rw [← Fintype.sum_prod_type']
  exact Equiv.sum_comp colEquiv f

/-- With real weights and rounding offsets the two dequantized weights are one number. -/
theorem QK_eq_QR (W V : A4096x4096.Idx → EReal) (MN MX : A131072.Idx → EReal)
    (hW : ∀ i, ∃ r : ℝ, W i = (r : EReal)) (hV : ∀ i, ∃ r : ℝ, V i = (r : EReal)) (n k : Fin 4096) :
    QK W V MN MX n k = QR W V MN MX n k := by
  obtain ⟨w, hw⟩ := hW (ix2 n k)
  obtain ⟨v, hv⟩ := hV (ix2 n k)
  obtain ⟨mn, hmn, hmn1, -⟩ := clipU_real (MN (ix1 (rowOf n k)))
  obtain ⟨mx, hmx, hmx1, -⟩ := clipU_real (MX (ix1 (rowOf n k)))
  have hgmin : Finset.univ.fold min cTop (gLane W (rowOf n k)) ≠ ⊥ :=
    fold_min_ne_bot _ _ _ (by rw [cTop_eq]; exact top_ne_bot) (fun l => by
      obtain ⟨r, hr⟩ := hW (ix2 (⟨(rowOf n k).val / 32, by have := (rowOf n k).isLt; omega⟩ : Fin 4096)
        (⟨128 * ((rowOf n k).val % 32) + l.val, by have := l.isLt; omega⟩ : Fin 4096))
      show W _ ≠ ⊥
      rw [hr]; exact EReal.coe_ne_bot r)
  have hgmax : Finset.univ.fold max cBot (gLane W (rowOf n k)) ≠ ⊤ :=
    fold_max_ne_top _ _ _ (by rw [cBot_eq]; exact bot_ne_top) (fun l => by
      obtain ⟨r, hr⟩ := hW (ix2 (⟨(rowOf n k).val / 32, by have := (rowOf n k).isLt; omega⟩ : Fin 4096)
        (⟨128 * ((rowOf n k).val % 32) + l.val, by have := l.isLt; omega⟩ : Fin 4096))
      show W _ ≠ ⊤
      rw [hr]; exact EReal.coe_ne_top r)
  obtain ⟨lo, hlo, hlo0⟩ := loTmp_real hgmin hmn1
  obtain ⟨hi, hhi, hhi0⟩ := hiTmp_real hgmax hmx1
  obtain ⟨s, wm, hs, hs0, hwm⟩ := scale_facts hlo0 hhi0
  have e1 : gLo W MN (rowOf n k) = (lo : EReal) := by unfold gLo; rw [hmn]; exact hlo
  have e2 : gHi W MX (rowOf n k) = (hi : EReal) := by unfold gHi; rw [hmx]; exact hhi
  unfold QK QR gScale gWmin
  rw [e1, e2, hs, hwm, hw, hv]
  exact qKer_eq_qRef hs0 wm w v

/-- So the two results agree entry by entry. -/
theorem GK_eq_GR (X : A32x4096.Idx → EReal) (W : A4096x4096.Idx → EReal) (B : A4096.Idx → EReal) (V : A4096x4096.Idx → EReal)
    (MN MX : A131072.Idx → EReal) (hW : ∀ i, ∃ r : ℝ, W i = (r : EReal)) (hV : ∀ i, ∃ r : ℝ, V i = (r : EReal)) :
    GK X W B V MN MX = GR X W B V MN MX := by
  funext j
  unfold GK GR GKat GRat
  rw [cZero_eq, zero_add, sum_cols (fun k => X (ix2 (j 0) k) * QK W V MN MX (j 1) k)]
  congr 1
  refine Finset.sum_congr rfl fun k _ => ?_
  exact congrArg (X (ix2 (j 0) k) * ·) (QK_eq_QR W V MN MX hW hV _ _)

end Cert.GlobalSpec

end
-- ==== Proof.TileGlobal.lean ====
/-
  A tile of the grid against the whole arrays. Point `(nt, kt)` of the grid loads rows `1024 nt …` and columns
  `1024 kt …` of the weights and rounding offsets, and rows `8 kt …`, columns `1024 nt …` of the `[32, 4096]` scale
  arrays, whose entry `(G, n)` is the parameter of group `G` of weight row `n`, position `32 n + G` of the flat
  parameter vector. Entry `(p, k)` of the tile's dequantized weights is then the whole matrix' dequantized weight
  `(1024 nt + p, 1024 kt + k)`: the same 128 lanes, the same two parameters.
-/
import proofs.«176642_j33122787787467_2_alg».proof.Proof.TileSpec
import proofs.«176642_j33122787787467_2_alg».proof.Proof.GlobalSpec

noncomputable section

namespace Cert.TileGlobal

open Idealize.ShloMosaic Idealize.ShloMosaic.ValueIdx Cert.QuantSpec Cert.Layout Cert.TileSpec Cert.GlobalSpec

/-- The dequantized entry from a group's lanes `L1`, `L2` and its two parameters. -/
def coreQ (L1 L2 : Fin 128 → EReal) (m3 m4 : EReal) (l : Fin 128) : EReal :=
  qKer (scaleOf (loTmp (Finset.univ.fold min cTop L1) (clipU m3)) (hiTmp (Finset.univ.fold max cBot L1) (clipU m4)))
    (wminOf (loTmp (Finset.univ.fold min cTop L1) (clipU m3)) (hiTmp (Finset.univ.fold max cBot L1) (clipU m4))) (L1 l) (L2 l)

theorem tileQ_core (x1 x2 : T1024x1024.Idx → EReal) (x3 x4 : T8x1024.Idx → EReal) (p : Fin 1024) (g : Fin 8) (o : Nat)
    (ho : o + 128 ≤ 1024) (l : Fin 128) :
    tileQ x1 x2 x3 x4 p g o ho l = coreQ (lane x1 p o ho) (lane x2 p o ho) (x3 (ix2 g p)) (x4 (ix2 g p)) l := rfl

/-- Lane `k % 128` of the group of entry `(n, k)` is that entry. -/
theorem gLane_at (A : A4096x4096.Idx → EReal) (n k : Fin 4096) :
    gLane A (rowOf n k) ⟨k.val % 128, Nat.mod_lt _ (by norm_num)⟩ = A (ix2 n k) := by
  have hn := n.isLt
  have hk := k.isLt
  unfold gLane rowOf
  congr 1
  funext a
  apply Fin.ext
  match a with
  | ⟨0, _⟩ => show (32 * n.val + k.val / 128) / 32 = n.val; omega
  | ⟨1, _⟩ => show 128 * ((32 * n.val + k.val / 128) % 32) + k.val % 128 = k.val; omega

theorem QK_core (W V : A4096x4096.Idx → EReal) (MN MX : A131072.Idx → EReal) (n k : Fin 4096) :
    QK W V MN MX n k = coreQ (gLane W (rowOf n k)) (gLane V (rowOf n k)) (MN (ix1 (rowOf n k))) (MX (ix1 (rowOf n k)))
      ⟨k.val % 128, Nat.mod_lt _ (by norm_num)⟩ := by
  unfold coreQ
  rw [gLane_at W, gLane_at V]
  rfl

/-- The tile's lanes are the whole matrix' lanes. -/
theorem lane_global (x : T1024x1024.Idx → EReal) (A : A4096x4096.Idx → EReal) (nt kt : Fin 4)
    (hx : ∀ p q : Fin 1024, x (ix2 p q) = A (ix2 (col nt p) (col kt q))) (p k : Fin 1024)
    (ho : 128 * (k.val / 128) + 128 ≤ 1024) :
    lane x p (128 * (k.val / 128)) ho = gLane A (rowOf (col nt p) (col kt k)) := by
  have hnt := nt.isLt
  have hkt := kt.isLt
  have hp := p.isLt
  have hk := k.isLt
  funext l
  have hl := l.isLt
  unfold lane
  rw [hx]
  unfold gLane rowOf col
  congr 1
  funext a
  apply Fin.ext
  match a with
  | ⟨0, _⟩ => show 1024 * nt.val + p.val = (32 * (1024 * nt.val + p.val) + (1024 * kt.val + k.val) / 128) / 32; omega
  | ⟨1, _⟩ =>
    show 1024 * kt.val + (128 * (k.val / 128) + l.val)
      = 128 * ((32 * (1024 * nt.val + p.val) + (1024 * kt.val + k.val) / 128) % 32) + l.val
    omega

/-- Entry `(p, k)` of the tile at grid point `(nt, kt)` is entry `(1024 nt + p, 1024 kt + k)` of the whole. -/
theorem tileW_global (x1 x2 : T1024x1024.Idx → EReal) (x3 x4 : T8x1024.Idx → EReal) (W V : A4096x4096.Idx → EReal)
    (MN MX : A131072.Idx → EReal) (nt kt : Fin 4)
    (h1 : ∀ p q : Fin 1024, x1 (ix2 p q) = W (ix2 (col nt p) (col kt q)))
    (h2 : ∀ p q : Fin 1024, x2 (ix2 p q) = V (ix2 (col nt p) (col kt q)))
    (h3 : ∀ (g : Fin 8) (p : Fin 1024), x3 (ix2 g p)
      = MN (ix1 (⟨32 * (1024 * nt.val + p.val) + (8 * kt.val + g.val), by have := nt.isLt; have := kt.isLt; have := p.isLt; have := g.isLt; omega⟩ : Fin 131072)))
    (h4 : ∀ (g : Fin 8) (p : Fin 1024), x4 (ix2 g p)
      = MX (ix1 (⟨32 * (1024 * nt.val + p.val) + (8 * kt.val + g.val), by have := nt.isLt; have := kt.isLt; have := p.isLt; have := g.isLt; omega⟩ : Fin 131072)))
    (p k : Fin 1024) :
    tileW x1 x2 x3 x4 p k = QK W V MN MX (col nt p) (col kt k) := by
  have hnt := nt.isLt
  have hkt := kt.isLt
  have hp := p.isLt
  have hk := k.isLt
  have hrow : (⟨32 * (1024 * nt.val + p.val) + (8 * kt.val + k.val / 128), by omega⟩ : Fin 131072) = rowOf (col nt p) (col kt k) :=
    Fin.ext (by
      show 32 * (1024 * nt.val + p.val) + (8 * kt.val + k.val / 128) = 32 * (1024 * nt.val + p.val) + (1024 * kt.val + k.val) / 128
      omega)
  have hlane : (⟨k.val % 128, Nat.mod_lt _ (by norm_num)⟩ : Fin 128) = ⟨(col kt k).val % 128, Nat.mod_lt _ (by norm_num)⟩ :=
    Fin.ext (by show k.val % 128 = (1024 * kt.val + k.val) % 128; omega)
  unfold tileW
  rw [tileQ_core, QK_core, lane_global x1 W nt kt h1, lane_global x2 V nt kt h2, h3, h4]
  show coreQ _ _ (MN (ix1 _)) (MX (ix1 _)) _ = _
  rw [hrow, hlane]

end Cert.TileGlobal

end
-- ==== Proof.KernelValue.lean ====
/-
  The kernel read entry by entry: after the grid's run the result array holds, at `(i, n)`, zero plus the four
  partial products of row `i` of the activations with row `n` of the dequantized weights, plus the bias
  (`GlobalSpec.GKat`). Grid point `t` is `(t / 4, t % 4)`: row tile `t / 4` of the weights, column tile `t % 4`.
  The accumulator scratch is reset at the points `t % 4 = 0` and gains one partial product per point; the output
  block is written at the points `t % 4 = 3`, whose blocks cover the result.
-/
import proofs.«176642_j33122787787467_2_alg».proof.Proof.Gen.KernelIdeal.Value
import proofs.«176642_j33122787787467_2_alg».proof.Proof.StepAt
import proofs.«176642_j33122787787467_2_alg».proof.Proof.TileGlobal
import Idealize.ShloMosaic.Lib.Pipeline.Value
import Idealize.ShloMosaic.Lib.ValueLayout
import Idealize.ShloMosaic.Lib.StableHlo.Run
import Idealize.ShloMosaic.Lib.Tactic
set_option maxRecDepth 1000000
noncomputable section
open Idealize.ShloMosaic Idealize.ShloMosaic.TcCoe Idealize.SL.Sem Idealize.ShloMosaic.ValueIdx
open Idealize.ShloMosaic.Pipeline (Dat)
namespace Cert.KernelIdeal.KValue
open Cert.KernelIdeal Cert.KernelIdeal.Gen Cert.KernelIdeal.Value Cert.KernelIdeal.Pieces Cert.KernelIdeal.StepAt
open Cert.QuantSpec Cert.Layout Cert.TileSpec Cert.GlobalSpec Cert.TileGlobal

variable (m : (ℓ : Loc nD τ sig) → Buf (Elt Ideal) ℓ) (ρ : Dev nD → PrngReg)

/-- The six argument arrays. -/
abbrev aX (c : Dev nD) : A32x4096.Idx → EReal := m ((c : Thread nD τ).loc main_arg0)
abbrev aW (c : Dev nD) : A4096x4096.Idx → EReal := m ((c : Thread nD τ).loc main_arg1)
abbrev aB (c : Dev nD) : A4096.Idx → EReal := m ((c : Thread nD τ).loc main_arg2)
abbrev aV (c : Dev nD) : A4096x4096.Idx → EReal := m ((c : Thread nD τ).loc main_arg3)
abbrev aMN (c : Dev nD) : A131072.Idx → EReal := m ((c : Thread nD τ).loc main_arg4)
abbrev aMX (c : Dev nD) : A131072.Idx → EReal := m ((c : Thread nD τ).loc main_arg5)

/-- The windows' block indices at point `t = (t / 4, t % 4)`. -/
theorem idx_facts : ∀ t : Fin cfg0.N,
    win0_0.index t (0 : Fin 2) = 0 ∧ win0_0.index t (1 : Fin 2) = t.val % 4
    ∧ win0_1.index t (0 : Fin 2) = t.val / 4 ∧ win0_1.index t (1 : Fin 2) = t.val % 4
    ∧ win0_2.index t (0 : Fin 2) = t.val / 4 ∧ win0_2.index t (1 : Fin 2) = t.val % 4
    ∧ win0_3.index t (0 : Fin 2) = t.val % 4 ∧ win0_3.index t (1 : Fin 2) = t.val / 4
    ∧ win0_4.index t (0 : Fin 2) = t.val % 4 ∧ win0_4.index t (1 : Fin 2) = t.val / 4
    ∧ win0_5.index t (0 : Fin 2) = 0 ∧ win0_5.index t (1 : Fin 2) = t.val / 4
    ∧ win0_6.index t (0 : Fin 2) = 0 ∧ win0_6.index t (1 : Fin 2) = t.val / 4 :=
  (by decide +kernel : ∀ t : Fin grid0.N, _)

theorem t_lt (t : Fin cfg0.N) : t.val < 16 := lt_of_lt_of_eq t.isLt (show cfg0.N = 16 from N_0)

/-- Row tile and column tile of a point. -/
def ntOf (t : Fin cfg0.N) : Fin 4 := ⟨t.val / 4, by have := t_lt t; omega⟩
def ktOf (t : Fin cfg0.N) : Fin 4 := ⟨t.val % 4, Nat.mod_lt _ (by norm_num)⟩

/-! ## The arrays the host prepares: the two scale vectors as `[32, 4096]`, the bias as a row -/

theorem V_v1_at (c : Dev nD) (a : Fin 32) (b : Fin 4096) :
    (V m c main_v1 : S32x4096.Idx → EReal) (ix2 a b)
      = aMN m c (ix1 (⟨32 * b.val + a.val, by have := a.isLt; have := b.isLt; omega⟩ : Fin 131072)) := by
  have e : (V m c main_v1 : S32x4096.Idx → EReal)
      = transpose S32x4096 [1, 0] (shapeCast S4096x32 (m ((c : Thread nD τ).loc main_arg4)) shapeCasts_S131072_S4096x32)
          transposes_S4096x32_S32x4096_1_0 := by
    dsimp only [Gen.V, Gen.hostOps0]; after_results; rfl
  rw [e, transpose_ix2_apply]
  exact shapeCast_apply _ _ (ix2 b a) (ix1 (⟨32 * b.val + a.val, by have := a.isLt; have := b.isLt; omega⟩ : Fin 131072)) (by
    rw [Shape.rowMajor_val_one, Shape.rowMajor_val_two]
    show 32 * b.val + a.val = b.val * 32 + a.val
    omega)

theorem V_v3_at (c : Dev nD) (a : Fin 32) (b : Fin 4096) :
    (V m c main_v3 : S32x4096.Idx → EReal) (ix2 a b)
      = aMX m c (ix1 (⟨32 * b.val + a.val, by have := a.isLt; have := b.isLt; omega⟩ : Fin 131072)) := by
  have e : (V m c main_v3 : S32x4096.Idx → EReal)
      = transpose S32x4096 [1, 0] (shapeCast S4096x32 (m ((c : Thread nD τ).loc main_arg5)) shapeCasts_S131072_S4096x32)
          transposes_S4096x32_S32x4096_1_0 := by
    dsimp only [Gen.V, Gen.hostOps0]; after_results; rfl
  rw [e, transpose_ix2_apply]
  exact shapeCast_apply _ _ (ix2 b a) (ix1 (⟨32 * b.val + a.val, by have := a.isLt; have := b.isLt; omega⟩ : Fin 131072)) (by
    rw [Shape.rowMajor_val_one, Shape.rowMajor_val_two]
    show 32 * b.val + a.val = b.val * 32 + a.val
    omega)

theorem V_v4_at (c : Dev nD) (u : Fin 1) (b : Fin 4096) :
    (V m c main_v4 : S1x4096.Idx → EReal) (ix2 u b) = aB m c (ix1 b) := by
  have e : (V m c main_v4 : S1x4096.Idx → EReal)
      = shapeCast S1x4096 (m ((c : Thread nD τ).loc main_arg2)) shapeCasts_S4096_S1x4096 := by
    dsimp only [Gen.V, Gen.hostOps0]; after_results; rfl
  rw [e, shapeCast_a_1a_apply]

/-! ## The blocks a point loads -/

theorem blk0 (c : Dev nD) (t : Fin cfg0.N) (i : Fin 32) (k : Fin 1024) :
    (iblk m c 0 t : Vec Ideal S32x1024 .f32) (ix2 i k) = aX m c (ix2 i (col (ktOf t) k)) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 32 + 1 * i.val = i.val; rw [e0]; omega
  | ⟨1, _⟩ => show win0_0.index t (1 : Fin 2) * 1024 + 1 * k.val = 1024 * (t.val % 4) + k.val; rw [e1]; omega

theorem blk1 (c : Dev nD) (t : Fin cfg0.N) (p q : Fin 1024) :
    (iblk m c 1 t : Vec Ideal S1024x1024 .f32) (ix2 p q) = aW m c (ix2 (col (ntOf t) p) (col (ktOf t) q)) := by
  obtain ⟨-, -, e0, e1, -⟩ := idx_facts t
  unfold iblk
  rw [View.read_apply]
  show V m c main_arg1 _ = _
  rw [V_main_arg1]
  congr 1
  funext a
  apply Fin.ext
  match a with
  | ⟨0, _⟩ => show win0_1.index t (0 : Fin 2) * 1024 + 1 * p.val = 1024 * (t.val / 4) + p.val; rw [e0]; omega
  | ⟨1, _⟩ => show win0_1.index t (1 : Fin 2) * 1024 + 1 * q.val = 1024 * (t.val % 4) + q.val; rw [e1]; omega

theorem blk2 (c : Dev nD) (t : Fin cfg0.N) (p q : Fin 1024) :
    (iblk m c 2 t : Vec Ideal S1024x1024 .f32) (ix2 p q) = aV m c (ix2 (col (ntOf t) p) (col (ktOf t) q)) := by
  obtain ⟨-, -, -, -, e0, e1, -⟩ := idx_facts t
  unfold iblk
  rw [View.read_apply]
  show V m c main_arg3 _ = _
  rw [V_main_arg3]
  congr 1
  funext a
  apply Fin.ext
  match a with
  | ⟨0, _⟩ => show win0_2.index t (0 : Fin 2) * 1024 + 1 * p.val = 1024 * (t.val / 4) + p.val; rw [e0]; omega
  | ⟨1, _⟩ => show win0_2.index t (1 : Fin 2) * 1024 + 1 * q.val = 1024 * (t.val % 4) + q.val; rw [e1]; omega

theorem blk3 (c : Dev nD) (t : Fin cfg0.N) (g : Fin 8) (p : Fin 1024) :
    (iblk m c 3 t : Vec Ideal S8x1024 .f32) (ix2 g p)
      = aMN m c (ix1 (⟨32 * (1024 * (ntOf t).val + p.val) + (8 * (ktOf t).val + g.val), by
          have := (ntOf t).isLt; have := (ktOf t).isLt; have := p.isLt; have := g.isLt; omega⟩ : Fin 131072)) := by
  obtain ⟨-, -, -, -, -, -, e0, e1, -⟩ := idx_facts t
  have ht := t_lt t
  have hg := g.isLt
  have hp := p.isLt
  unfold iblk
  rw [View.read_apply]
  show V m c main_v1 _ = _
  refine Eq.trans ?_ (V_v1_at m c (⟨8 * (t.val % 4) + g.val, by omega⟩ : Fin 32) (⟨1024 * (t.val / 4) + p.val, by omega⟩ : Fin 4096))
  congr 1
  funext a
  apply Fin.ext
  match a with
  | ⟨0, _⟩ => show win0_3.index t (0 : Fin 2) * 8 + 1 * g.val = 8 * (t.val % 4) + g.val; rw [e0]; omega
  | ⟨1, _⟩ => show win0_3.index t (1 : Fin 2) * 1024 + 1 * p.val = 1024 * (t.val / 4) + p.val; rw [e1]; omega

theorem blk4 (c : Dev nD) (t : Fin cfg0.N) (g : Fin 8) (p : Fin 1024) :
    (iblk m c 4 t : Vec Ideal S8x1024 .f32) (ix2 g p)
      = aMX m c (ix1 (⟨32 * (1024 * (ntOf t).val + p.val) + (8 * (ktOf t).val + g.val), by
          have := (ntOf t).isLt; have := (ktOf t).isLt; have := p.isLt; have := g.isLt; omega⟩ : Fin 131072)) := by
  obtain ⟨-, -, -, -, -, -, -, -, e0, e1, -⟩ := idx_facts t
  have ht := t_lt t
  have hg := g.isLt
  have hp := p.isLt
  unfold iblk
  rw [View.read_apply]
  show V m c main_v3 _ = _
  refine Eq.trans ?_ (V_v3_at m c (⟨8 * (t.val % 4) + g.val, by omega⟩ : Fin 32) (⟨1024 * (t.val / 4) + p.val, by omega⟩ : Fin 4096))
  congr 1
  funext a
  apply Fin.ext
  match a with
  | ⟨0, _⟩ => show win0_4.index t (0 : Fin 2) * 8 + 1 * g.val = 8 * (t.val % 4) + g.val; rw [e0]; omega
  | ⟨1, _⟩ => show win0_4.index t (1 : Fin 2) * 1024 + 1 * p.val = 1024 * (t.val / 4) + p.val; rw [e1]; omega

theorem blk5 (c : Dev nD) (t : Fin cfg0.N) (u : Fin 1) (q : Fin 1024) :
    (iblk m c 5 t : Vec Ideal S1x1024 .f32) (ix2 u q) = aB m c (ix1 (col (ntOf t) q)) := by
  obtain ⟨-, -, -, -, -, -, -, -, -, -, e0, e1, -⟩ := idx_facts t
  have ht := t_lt t
  have hq := q.isLt
  unfold iblk
  rw [View.read_apply]
  show V m c main_v4 _ = _
  refine Eq.trans ?_ (V_v4_at m c (0 : Fin 1) (col (ntOf t) q))
  congr 1
  funext a
  apply Fin.ext
  match a with
  | ⟨0, _⟩ => show win0_5.index t (0 : Fin 2) * 1 + 1 * u.val = 0; rw [e0]; omega
  | ⟨1, _⟩ => show win0_5.index t (1 : Fin 2) * 1024 + 1 * q.val = 1024 * (t.val / 4) + q.val; rw [e1]; omega

/-! ## One point's partial product, and the accumulator -/

/-- The blocks point `t` loads, as plain functions of their indices. -/
abbrev xb0 (c : Dev nD) (t : Fin cfg0.N) : S32x1024.Idx → EReal := iblk m c 0 t
abbrev xb1 (c : Dev nD) (t : Fin cfg0.N) : S1024x1024.Idx → EReal := iblk m c 1 t
abbrev xb2 (c : Dev nD) (t : Fin cfg0.N) : S1024x1024.Idx → EReal := iblk m c 2 t
abbrev xb3 (c : Dev nD) (t : Fin cfg0.N) : S8x1024.Idx → EReal := iblk m c 3 t
abbrev xb4 (c : Dev nD) (t : Fin cfg0.N) : S8x1024.Idx → EReal := iblk m c 4 t
abbrev xb5 (c : Dev nD) (t : Fin cfg0.N) : S1x1024.Idx → EReal := iblk m c 5 t

/-- Point `t`'s partial product at `(i, q)` of the tile. -/
def Mat (c : Dev nD) (t : Fin cfg0.N) (i : Fin 32) (q : Fin 1024) : EReal :=
  ∑ k : Fin 1024, xb0 m c t (ix2 i k) * tileW (xb1 m c t) (xb2 m c t) (xb3 m c t) (xb4 m c t) q k

/-- The same for any position `n` (zero past the grid, never used). -/
def Mpt (c : Dev nD) (n : ℕ) (idx : S32x1024.Idx) : EReal :=
  if h : n < cfg0.N then Mat m c ⟨n, h⟩ (idx 0) (idx 1) else 0

/-- In whole-array terms. -/
theorem Mat_global (c : Dev nD) (t : Fin cfg0.N) (i : Fin 32) (q : Fin 1024) :
    Mat m c t i q = ∑ k : Fin 1024, aX m c (ix2 i (col (ktOf t) k))
      * QK (aW m c) (aV m c) (aMN m c) (aMX m c) (col (ntOf t) q) (col (ktOf t) k) := by
  unfold Mat
  refine Finset.sum_congr rfl fun k _ => ?_
  rw [show xb0 m c t (ix2 i k) = _ from blk0 m c t i k, tileW_global (xb1 m c t) (xb2 m c t) (xb3 m c t) (xb4 m c t) (aW m c) (aV m c) (aMN m c) (aMX m c)
    (ntOf t) (ktOf t) (blk1 m c t) (blk2 m c t) (blk3 m c t) (blk4 m c t)]

theorem step_pt (c : Dev nD) (t : Fin cfg0.N) (acc : Vec Ideal S32x1024 .f32) (idx : S32x1024.Idx) :
    stepK (iblk m c 0 t) (iblk m c 1 t) (iblk m c 2 t) (iblk m c 3 t) (iblk m c 4 t) acc idx = acc idx + Mpt m c t.val idx := by
  obtain ⟨i, q, rfl⟩ : ∃ (i : Fin 32) (q : Fin 1024), idx = ix2 i q := ⟨idx 0, idx 1, eq_ix2 idx⟩
  rw [stepK_at]
  unfold Mpt
  rw [dif_pos t.isLt]
  rfl

/-- At the first point of a grid row the scratch restarts from zero. -/
theorem sc_first (c : Dev nD) (n : ℕ) (hb : n < cfg0.N) (h0 : n % 4 = 0) (acc : Vec Ideal S32x1024 .f32) (idx : S32x1024.Idx) :
    scAt0_0 m c n hb acc idx = cZero + Mpt m c n idx := by
  have h1 : ¬n % 4 = 3 := by omega
  unfold scAt0_0
  rw [dif_pos h0, dif_neg h1, sout_A]
  refine (step_pt m c ⟨n, hb⟩ _ idx).trans ?_
  congr 1

/-- At every other point it gains the point's partial product. -/
theorem sc_next (c : Dev nD) (n : ℕ) (hb : n < cfg0.N) (h0 : ¬n % 4 = 0) (acc : Vec Ideal S32x1024 .f32) (idx : S32x1024.Idx) :
    scAt0_0 m c n hb acc idx = acc idx + Mpt m c n idx := by
  unfold scAt0_0
  rw [dif_neg h0]
  by_cases h1 : n % 4 = 3
  · rw [dif_pos h1, sout_C]
    exact step_pt m c ⟨n, hb⟩ acc idx
  · rw [dif_neg h1, sout_B]
    exact step_pt m c ⟨n, hb⟩ acc idx

/-- The scratch after point `t`: zero plus the partial products of the grid row so far. -/
theorem scratch_after (c : Dev nD) (t : Fin cfg0.N) (idx : S32x1024.Idx) :
    (outsAt0 m c t.val t.isLt).2 idx = cZero + ∑ s ∈ Finset.range (t.val % 4 + 1), Mpt m c (4 * (t.val / 4) + s) idx := by
  rw [soutsAt0_0_eq m c t]
  exact Pipeline.accAt_add_apply (ι := S32x1024.Idx) (β := EReal)
    (fun n h => scAt0_0 m c n h (VS0_0.read (Elt Ideal) VS0_0.junk)) (scAt0_0 m c) (fun _ => cZero) (Mpt m c)
    (4 * (t.val / 4)) 3 (fun h i => sc_first m c _ h (by omega) _ i)
    (fun n h acc i hlt hle => sc_next m c n h (by omega) acc i) (t.val % 4) (by omega) _ idx

/-- At the last point of a grid row the output block is the scratch plus the bias row. -/
theorem out_pt (c : Dev nD) (t : Fin cfg0.N) (h3 : t.val % 4 = 3) (i : Fin 32) (q : Fin 1024) :
    (outsAt0 m c t.val t.isLt).1 (ix2 i q)
      = (outsAt0 m c t.val t.isLt).2 (ix2 i q) + xb5 m c t (ix2 (0 : Fin 1) q) := by
  have h0 : ¬t.val % 4 = 0 := by omega
  rw [outsAt0_C m c t h0 h3]
  dsimp only
  rw [out_C, sout_C]
  exact out_at _ _ i q

/-! ## The result array -/

/-- What the result array ends holding. -/
abbrev result (c : Dev nD) : Buf (Elt Ideal) ((c : Thread nD τ).loc main_v5) :=
  GK (aX m c) (aW m c) (aB m c) (aV m c) (aMN m c) (aMX m c)

theorem flushed_eq (c : Dev nD) (t : Fin cfg0.N) (hf : (cfg0.win 6).flush t = true) :
    (dats m 0 c).flushed 6 t = ((cfg0.win 6).blk t).view.read (Elt Ideal) (result m c) := by
  have h3 : t.val % 4 = 3 := (flush0_6 t).mp hf
  have ht := t_lt t
  obtain ⟨-, -, -, -, -, -, -, -, -, -, -, -, e0, e1⟩ := idx_facts t
  rw [flushed6]
  funext j
  obtain ⟨i, q, rfl⟩ : ∃ (i : Fin 32) (q : Fin 1024), j = ix2 i q := ⟨j 0, j 1, eq_ix2 j⟩
  show (outsAt0 m c t.val t.isLt).1 (ix2 i q) = result m c (((cfg0.win 6).blk t).view.emb (ix2 i q))
  have hemb : ((cfg0.win 6).blk t).view.emb (ix2 i q) = ix2 i (col (ntOf t) q) := funext fun a => Fin.ext (by
    match a with
    | ⟨0, _⟩ => show win0_6.index t (0 : Fin 2) * 32 + 1 * i.val = i.val; rw [e0]; omega
    | ⟨1, _⟩ => show win0_6.index t (1 : Fin 2) * 1024 + 1 * q.val = 1024 * (t.val / 4) + q.val; rw [e1]; omega)
  rw [hemb, out_pt m c t h3, scratch_after, show xb5 m c t (ix2 (0 : Fin 1) q) = _ from blk5 m c t 0 q]
  show _ = GKat (aX m c) (aW m c) (aB m c) (aV m c) (aMN m c) (aMX m c) i (col (ntOf t) q)
  unfold GKat
  congr 2
  rw [h3, Finset.sum_range]
  refine Finset.sum_congr rfl fun s _ => ?_
  have hs := s.isLt
  have hlt : 4 * (t.val / 4) + s.val < cfg0.N := by have hN : cfg0.N = 16 := N_0; omega
  unfold Mpt
  rw [dif_pos hlt]
  refine (Mat_global m c ⟨4 * (t.val / 4) + s.val, hlt⟩ i q).trans ?_
  have hk : ktOf ⟨4 * (t.val / 4) + s.val, hlt⟩ = s := Fin.ext (by show (4 * (t.val / 4) + s.val) % 4 = s.val; omega)
  have hn : ntOf ⟨4 * (t.val / 4) + s.val, hlt⟩ = ntOf t := Fin.ext (by show (4 * (t.val / 4) + s.val) / 4 = t.val / 4; omega)
  rw [hk, hn]

theorem cover (i : S32x4096.Idx) : ∃ t : Fin cfg0.N, (cfg0.win 6).flush t = true ∧ i ∈ ((cfg0.win 6).blk t).view.set := by
  have h0 : (i 0 : Nat) < 32 := (i 0).isLt
  have h1 : (i 1 : Nat) < 4096 := (i 1).isLt
  have hN : cfg0.N = 16 := N_0
  let t : Fin cfg0.N := ⟨4 * ((i 1 : Nat) / 1024) + 3, by rw [hN]; omega⟩
  obtain ⟨-, -, -, -, -, -, -, -, -, -, -, -, e0, e1⟩ := idx_facts t
  refine ⟨t, (flush0_6 t).mpr (by show (4 * ((i 1 : Nat) / 1024) + 3) % 4 = 3; omega), ?_⟩
  show i ∈ ((View.whole main_v5).slice (win0_6.rect t)).set
  rw [View.set_slice_whole, Rect.mem_set_unit]
  intro a
  match a with
  | ⟨0, _⟩ =>
    show win0_6.index t (0 : Fin 2) * 32 ≤ (i 0 : Nat) ∧ (i 0 : Nat) < win0_6.index t (0 : Fin 2) * 32 + 32
    rw [e0]; omega
  | ⟨1, _⟩ =>
    show win0_6.index t (1 : Fin 2) * 1024 ≤ (i 1 : Nat) ∧ (i 1 : Nat) < win0_6.index t (1 : Fin 2) * 1024 + 1024
    rw [e1]
    show (4 * ((i 1 : Nat) / 1024) + 3) / 4 * 1024 ≤ (i 1 : Nat) ∧ (i 1 : Nat) < (4 * ((i 1 : Nat) / 1024) + 3) / 4 * 1024 + 1024
    omega

theorem final_o (c : Dev nD) : (dats m 0 c).arrAt 6 cfg0.N = result m c :=
  (dats m 0 c).arrAt_eq_of_cover 6 (result m c) (flushed_eq m c) cover

/-- The run, read: the result array at `GK` of the arguments, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_o m c), (h c).2⟩) (run_blocks m ρ)

end Cert.KernelIdeal.KValue
end
-- ==== Proof.RefValue.lean ====
/-
  The reference read entry by entry: its result at `(i, n)` is `Σ_k x[i, k] · q[n, k] + bias[n]`, with `q[n, k]` the
  reference's dequantized weight of the group `32 n + k / 128` (`GlobalSpec.GRat`). The elementwise stages are read
  off the generated index lemmas; the two row reductions (a group's minimum and maximum) are folds over the group's
  128 lanes.
-/
import proofs.«176642_j33122787787467_2_alg».proof.Proof.Gen.ReferenceIdeal.Read
import proofs.«176642_j33122787787467_2_alg».proof.Proof.TileGlobal
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.ValueIdx
open Cert.QuantSpec Cert.GlobalSpec

variable (x0 : (⟨S32x4096, .f32⟩ : BufTy).Contents (Elt Ideal)) (x1 x3 : (⟨S4096x4096, .f32⟩ : BufTy).Contents (Elt Ideal)) (x2 : (⟨S4096, .f32⟩ : BufTy).Contents (Elt Ideal)) (x4 x5 : (⟨S131072, .f32⟩ : BufTy).Contents (Elt Ideal))

/-- The clipped lower scale parameter of group `r`. -/
theorem v0_at (r : Fin 131072) : val_main_v0 (F := Ideal) x4 (ix1 r) = clipU (x4 (ix1 r)) := by
  rw [val_main_v0_apply, val_main_call0_v4_apply, val_main_call0_v3_apply, val_main_cst_0_apply, val_main_call0_v2_apply, val_main_call0_v1_apply, val_main_call0_v0_apply, val_main_cst_apply]
  rfl

/-- The clipped upper scale parameter of group `r`. -/
theorem v1_at (r : Fin 131072) : val_main_v1 (F := Ideal) x5 (ix1 r) = clipU (x5 (ix1 r)) := by
  rw [val_main_v1_apply, val_main_call1_v4_apply, val_main_call1_v3_apply, val_main_cst_2_apply, val_main_call1_v2_apply, val_main_call1_v1_apply, val_main_call1_v0_apply, val_main_cst_1_apply]
  rfl

/-- Row `r` of the `[131072, 128]` view of a `[4096, 4096]` array is group `r`. -/
theorem v2_at (r : Fin 131072) (l : Fin 128) : val_main_v2 (F := Ideal) x1 (ix2 r l) = gLane x1 r l := by
  rw [val_main_v2_apply]
  unfold gLane
  congr 1
  funext a
  apply Fin.ext
  have hr := r.isLt
  have hl := l.isLt
  match a with
  | ⟨0, _⟩ => show (r.val * 128 + l.val) / 4096 = r.val / 32; omega
  | ⟨1, _⟩ => show (r.val * 128 + l.val) % 4096 = 128 * (r.val % 32) + l.val; omega
theorem v3_at (r : Fin 131072) (l : Fin 128) : val_main_v3 (F := Ideal) x3 (ix2 r l) = gLane x3 r l := by
  rw [val_main_v3_apply]
  unfold gLane
  congr 1
  funext a
  apply Fin.ext
  have hr := r.isLt
  have hl := l.isLt
  match a with
  | ⟨0, _⟩ => show (r.val * 128 + l.val) / 4096 = r.val / 32; omega
  | ⟨1, _⟩ => show (r.val * 128 + l.val) % 4096 = 128 * (r.val % 32) + l.val; omega

theorem hred : S131072x128.Reduces [1] S131072 := by decide

/-- Group `r`'s minimum: the fold of `min` over its lanes from `+∞`. -/
theorem v4_at (r : Fin 131072) : val_main_v4 (F := Ideal) x1 (ix1 r) = Finset.univ.fold min cTop (gLane x1 r) := by
  unfold val_main_v4
  refine (Host.reduce_eq_fold_single (a := 1) FloatOps.minimumf _ _ reducesTo_S131072x128_S131072_d1 hred h_S_ (ix1 r)).trans ?_
  show (Finset.univ : Finset (Fin 128)).fold min _ _ = _
  congr 1
  funext l
  show val_main_v2 (F := Ideal) x1 (hred.lift (ix1 r) l) = _
  rw [← v2_at x1 r l]
  congr 1
  funext a
  match a with
  | ⟨0, _⟩ => rfl
  | ⟨1, _⟩ => rfl

/-- Group `r`'s maximum. -/
theorem v10_at (r : Fin 131072) : val_main_v10 (F := Ideal) x1 (ix1 r) = Finset.univ.fold max cBot (gLane x1 r) := by
  unfold val_main_v10
  refine (Host.reduce_eq_fold_single (a := 1) FloatOps.maximumf _ _ reducesTo_S131072x128_S131072_d1 hred h_S_ (ix1 r)).trans ?_
  show (Finset.univ : Finset (Fin 128)).fold max _ _ = _
  congr 1
  funext l
  show val_main_v2 (F := Ideal) x1 (hred.lift (ix1 r) l) = _
  rw [← v2_at x1 r l]
  congr 1
  funext a
  match a with
  | ⟨0, _⟩ => rfl
  | ⟨1, _⟩ => rfl

/-- The group's lower end. -/
theorem v9_at (r : Fin 131072) : val_main_v9 (F := Ideal) x1 x4 (ix1 r) = gLo x1 x4 r := by
  rw [val_main_v9_apply, val_main_v6_apply, v4_at, val_main_v8_apply, val_main_v5_apply, val_main_v7_apply, val_main_cst_4_apply,
    val_main_cst_5_apply, v0_at]
  rfl

/-- The group's upper end. -/
theorem v15_at (r : Fin 131072) : val_main_v15 (F := Ideal) x1 x5 (ix1 r) = gHi x1 x5 r := by
  rw [val_main_v15_apply, val_main_v12_apply, v10_at, val_main_v14_apply, val_main_v11_apply, val_main_v13_apply, val_main_cst_7_apply,
    val_main_cst_8_apply, v1_at]
  rfl

/-- The zero point's numerator. -/
theorem v23_at (r : Fin 131072) : val_main_v23 (F := Ideal) x1 x4 x5 (ix1 r) = gWmin x1 x4 x5 r := by
  rw [val_main_v23_apply, val_main_v22_apply, val_main_v19_apply, val_main_v21_apply, val_main_v17_apply, val_main_v16_apply, val_main_v18_apply, val_main_v20_apply, val_main_cst_9_apply, val_main_cst_10_apply, val_main_call2_v1_apply, val_main_call2_v0_apply, val_main_cst_11_apply,
    v15_at, v9_at]
  rfl

/-- The step. -/
theorem v27_at (r : Fin 131072) : val_main_v27 (F := Ideal) x1 x4 x5 (ix1 r) = gScale x1 x4 x5 r := by
  rw [val_main_v27_apply, val_main_v25_apply, val_main_v24_apply, val_main_v26_apply, val_main_cst_13_apply, v23_at, val_main_v22_apply, val_main_v19_apply, val_main_v21_apply, val_main_v17_apply, val_main_v16_apply, val_main_v18_apply, val_main_v20_apply, val_main_cst_9_apply, val_main_cst_10_apply, val_main_call3_v1_apply, val_main_call3_v0_apply, val_main_cst_12_apply,
    v15_at, v9_at]
  rfl

/-- The zero point, rounded through `(round y - y) + y`. -/
theorem v32_at (r : Fin 131072) :
    val_main_v32 (F := Ideal) x1 x4 x5 (ix1 r) = rste (Ideal.div (-(gWmin x1 x4 x5 r)) (gScale x1 x4 x5 r)) := by
  rw [val_main_v32_apply, val_main_v31_apply, val_main_v30_apply, val_main_v29_apply, val_main_v28_apply,
    v23_at, v27_at]
  rfl

/-- The reference's dequantized entry `l` of group `r`. -/
theorem v47_at (r : Fin 131072) (l : Fin 128) :
    val_main_v47 (F := Ideal) x1 x3 x4 x5 (ix2 r l)
      = qRef (gScale x1 x4 x5 r) (gWmin x1 x4 x5 r) (gLane x1 r l) (gLane x3 r l) := by
  have hi1 : ∀ u : Fin 1, idx_main_v33 (ix2 r u) = ix1 r := fun u => funext fun a => by
    match a with
    | ⟨0, _⟩ => rfl
  have hi1' : ∀ u : Fin 1, idx_main_v34 (ix2 r u) = ix1 r := fun u => funext fun a => by
    match a with
    | ⟨0, _⟩ => rfl
  have hi2 : idx_main_v35 (ix2 r l) = ix2 r (0 : Fin 1) := funext fun a => by
    match a with
    | ⟨0, _⟩ => rfl
    | ⟨1, _⟩ => rfl
  have hi3 : idx_main_v46 (ix2 r l) = ix2 r (0 : Fin 1) := funext fun a => by
    match a with
    | ⟨0, _⟩ => rfl
    | ⟨1, _⟩ => rfl
  have hi4 : idx_main_v41 (ix2 r l) = ix2 r (0 : Fin 1) := funext fun a => by
    match a with
    | ⟨0, _⟩ => rfl
    | ⟨1, _⟩ => rfl
  have hi5 : idx_main_v44 (ix2 r l) = ix2 r (0 : Fin 1) := funext fun a => by
    match a with
    | ⟨0, _⟩ => rfl
    | ⟨1, _⟩ => rfl
  have e33 : ∀ u : Fin 1, val_main_v33 (F := Ideal) x1 x4 x5 (ix2 r u) = gScale x1 x4 x5 r := fun u => by
    rw [val_main_v33_apply, hi1]; exact v27_at x1 x4 x5 r
  have e34 : ∀ u : Fin 1, val_main_v34 (F := Ideal) x1 x4 x5 (ix2 r u)
      = rste (Ideal.div (-(gWmin x1 x4 x5 r)) (gScale x1 x4 x5 r)) := fun u => by
    rw [val_main_v34_apply, hi1']; exact v32_at x1 x4 x5 r
  have e35 : val_main_v35 (F := Ideal) x1 x4 x5 (ix2 r l) = gScale x1 x4 x5 r := by
    rw [val_main_v35_apply, hi2]; exact e33 _
  have e46 : val_main_v46 (F := Ideal) x1 x4 x5 (ix2 r l) = gScale x1 x4 x5 r := by
    rw [val_main_v46_apply, hi3]; exact e33 _
  have e41 : val_main_v41 (F := Ideal) x1 x4 x5 (ix2 r l) = rste (Ideal.div (-(gWmin x1 x4 x5 r)) (gScale x1 x4 x5 r)) := by
    rw [val_main_v41_apply, hi4]; exact e34 _
  have e44 : val_main_v44 (F := Ideal) x1 x4 x5 (ix2 r l) = rste (Ideal.div (-(gWmin x1 x4 x5 r)) (gScale x1 x4 x5 r)) := by
    rw [val_main_v44_apply, hi5]; exact e34 _
  rw [val_main_v47_apply, e46, val_main_v45_apply, e44, val_main_v43_apply, val_main_call6_v4_apply, val_main_call6_v3_apply,
    val_main_cst_15_apply, val_main_call6_v2_apply, val_main_call6_v1_apply, val_main_call6_v0_apply, val_main_cst_14_apply,
    val_main_v42_apply, e41, val_main_v40_apply, val_main_v39_apply, val_main_v38_apply, val_main_v37_apply, val_main_v36_apply,
    e35, v2_at, v3_at]
  rfl

/-- The transposed dequantized weights at `(k, n)`: the reference's dequantized weight `(n, k)`. -/
theorem v49_at (k n : Fin 4096) : val_main_v49 (F := Ideal) x1 x3 x4 x5 (ix2 k n) = QR x1 x3 x4 x5 n k := by
  have hn := n.isLt
  have hk := k.isLt
  have hidx : idx_main_v48 (idx_main_v49 (ix2 k n)) = ix2 (rowOf n k) (⟨k.val % 128, Nat.mod_lt _ (by norm_num)⟩ : Fin 128) :=
    funext fun a => Fin.ext (by
      match a with
      | ⟨0, _⟩ => show (n.val * 4096 + k.val) / 128 = 32 * n.val + k.val / 128; omega
      | ⟨1, _⟩ => show (n.val * 4096 + k.val) % 128 = k.val % 128; omega)
  rw [val_main_v49_apply, val_main_v48_apply, hidx, v47_at]
  unfold QR
  rw [Cert.TileGlobal.gLane_at x1, Cert.TileGlobal.gLane_at x3]

/-- The reference's result at `(i, n)`. -/
theorem v53_at (i : Fin 32) (n : Fin 4096) :
    val_main_v53 (F := Ideal) x0 x1 x2 x3 x4 x5 (ix2 i n) = GRat x0 x1 x2 x3 x4 x5 i n := by
  have hb : idx_main_v51 (idx_main_v52 (ix2 i n)) = ix1 n := funext fun a => by
    match a with
    | ⟨0, _⟩ => rfl
  rw [val_main_v53_apply, val_main_v50_apply, val_main_v52_apply, val_main_v51_apply, hb]
  unfold GRat
  show (∑ k : Fin 4096, _) + _ = _
  congr 1
  refine Finset.sum_congr rfl fun k _ => ?_
  have hl : lidx_main_v50 (ix2 i n) k = ix2 i k := funext fun a => by
    match a with
    | ⟨0, _⟩ => rfl
    | ⟨1, _⟩ => rfl
  have hr : ridx_main_v50 (ix2 i n) k = ix2 k n := funext fun a => by
    match a with
    | ⟨0, _⟩ => rfl
    | ⟨1, _⟩ => rfl
  rw [hl, hr, v49_at]

/-- The reference's result array. -/
theorem result_eq : val_main_v53 (F := Ideal) x0 x1 x2 x3 x4 x5 = GR x0 x1 x2 x3 x4 x5 := by
  funext j
  obtain ⟨i, n, rfl⟩ : ∃ (i : Fin 32) (n : Fin 4096), j = ix2 i n := ⟨j 0, j 1, eq_ix2 j⟩
  exact v53_at x0 x1 x3 x2 x4 x5 i n

end Cert.ReferenceIdeal.RefValue

end
-- ==== Proof.Finite.lean ====
/-
  What the precondition gives: `finite_inputs` is the conjunction, over the six arguments, of "every entry's absolute
  value is below `+∞`". From it every weight and every rounding offset is a real number — which is all the
  comparison of the two programs uses.
-/
import proofs.«176642_j33122787787467_2_alg».proof.Pre_finite_inputs
import proofs.«176642_j33122787787467_2_alg».proof.Proof.QuantSpec
import Idealize.ShloMosaic.Lib.ReduceAll
import Idealize.ShloMosaic.Lib.Affine

noncomputable section

namespace Cert.Finite

open Idealize.ShloMosaic Cert.Pre_finite_inputs Cert.QuantSpec

variable [Facts]
open Facts

instance : Subsingleton S_.Idx := ⟨fun a b => funext fun d => d.elim0⟩

/-- An extended real whose absolute value is below `+∞` is a real. -/
theorem real_of_abs_lt (x : EReal) (h : Ideal.cmp .olt (max x (-x)) (Ideal.ofBits .f32 0x7F800000#32) = 1#1) :
    ∃ r : ℝ, x = (r : EReal) := by
  rw [show Ideal.ofBits .f32 0x7F800000#32 = (⊤ : EReal) from cTop_eq] at h
  induction x using EReal.rec with
  | bot => simp [Ideal.cmp] at h
  | top => simp [Ideal.cmp] at h
  | coe r => exact ⟨r, rfl⟩

/-- Under `finite_inputs` the weights (argument 1) and the rounding offsets (argument 3) are real entry by entry. -/
theorem weights_real (x0 : FVec Ideal S32x4096 .f32) (x1 : FVec Ideal S4096x4096 .f32) (x2 : FVec Ideal S4096 .f32)
    (x3 : FVec Ideal S4096x4096 .f32) (x4 x5 : FVec Ideal S131072 .f32)
    (h : fn (F := Ideal) x0 x1 x2 x3 x4 x5 = fun _ => 1#1) :
    (∀ i, ∃ r : ℝ, x1 i = (r : EReal)) ∧ (∀ i, ∃ r : ℝ, x3 i = (r : EReal)) := by
  have h0 := congrFun h ValueIdx.ix0
  dsimp only [fn, fn_part1] at h0
  obtain ⟨h5, -⟩ := IntOp.andi_eq_one.mp (show IntOp.andi _ _ = 1#1 from h0)
  obtain ⟨h4, -⟩ := IntOp.andi_eq_one.mp (show IntOp.andi _ _ = 1#1 from h5)
  obtain ⟨h3, e17⟩ := IntOp.andi_eq_one.mp (show IntOp.andi _ _ = 1#1 from h4)
  obtain ⟨h2, -⟩ := IntOp.andi_eq_one.mp (show IntOp.andi _ _ = 1#1 from h3)
  obtain ⟨-, e7⟩ := IntOp.andi_eq_one.mp (show IntOp.andi _ _ = 1#1 from h2)
  constructor
  · intro i
    have hi := Host.reduce_andi_all _ _ reducesTo_S4096x4096_S_d0_1 h_S_ ValueIdx.ix0 e7 i
    exact real_of_abs_lt (x1 i) hi
  · intro i
    have hi := Host.reduce_andi_all _ _ reducesTo_S4096x4096_S_d0_1 h_S_ ValueIdx.ix0 e17 i
    exact real_of_abs_lt (x3 i) hi

end Cert.Finite

end
-- ==== Proof.lean ====
/-
  A 4-bit group-quantized linear layer: `x · dequant(W)ᵀ + bias`, where every 128 consecutive entries of a weight row
  share a step and a zero point computed from the group's minimum and maximum and two clipped parameters.

  The kernel walks a 4 × 4 grid of 1024 × 1024 weight tiles, dequantizes a tile group by group, multiplies it with
  the matching activation columns and accumulates over the four column tiles of a grid row; the reference dequantizes
  the whole `[131072, 128]` view of the weights and takes one matrix product. On the extended reals the two results
  are the same function of the arguments wherever weights and rounding offsets are real numbers:

  * the sums differ only in how the 4096 products are grouped, and addition is associative and commutative;
  * the kernel multiplies by `1 / scale` where the reference divides by `scale`, and the reference rounds through
    `(round y - y) + y`; both differences vanish when `scale` is a nonzero real and the rounded quantity is real, which
    the ends `lo ≤ 0 ≤ hi` of a group guarantee (`QuantSpec`).

  `KernelValue` reads the kernel's run entry by entry, `RefValue` the reference's, `GlobalSpec.GK_eq_GR` joins them,
  `Finite` extracts the real-valuedness from the precondition. The frames are the generated ones; the idealization
  rewrote nothing, so `preserves` is trivial.
-/
import proofs.«176642_j33122787787467_2_alg».proof.Defs
import proofs.«176642_j33122787787467_2_alg».proof.Proof.Gen.Kernel
import proofs.«176642_j33122787787467_2_alg».proof.Proof.Gen.Kernel.Frame
import proofs.«176642_j33122787787467_2_alg».proof.Proof.Gen.KernelIdeal
import proofs.«176642_j33122787787467_2_alg».proof.Proof.Gen.KernelIdeal.Frame
import proofs.«176642_j33122787787467_2_alg».proof.Proof.Gen.KernelIdeal.Value
import proofs.«176642_j33122787787467_2_alg».proof.Proof.Gen.ReferenceIdeal
import proofs.«176642_j33122787787467_2_alg».proof.Proof.Gen.ReferenceIdeal.Run
import proofs.«176642_j33122787787467_2_alg».proof.Proof.Gen.ReferenceIdeal.Read
import proofs.«176642_j33122787787467_2_alg».proof.Proof.Gen.Pre_finite_inputs
import proofs.«176642_j33122787787467_2_alg».proof.Proof.KernelValue
import proofs.«176642_j33122787787467_2_alg».proof.Proof.RefValue
import proofs.«176642_j33122787787467_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree the kernel's result array ends at `GK` of them and the reference's at `GR`; under the
    precondition the weights and rounding offsets are real, and there the two functions agree. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨hW, hV⟩ := Cert.Finite.weights_real _ _ _ _ _ _ (hpre c)
  rw [Cert.ReferenceIdeal.Read.val_main_v53_eq, Cert.ReferenceIdeal.RefValue.result_eq, (hagree c).1, (hagree c).2.1,
    (hagree c).2.2.1, (hagree c).2.2.2.1, (hagree c).2.2.2.2.1, (hagree c).2.2.2.2.2]
  exact (Cert.GlobalSpec.GK_eq_GR _ _ _ _ _ _ hW hV).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
